-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v83)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v83) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v137) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S128 .f32) (main_arg6 : FVec F S128x40 .f32) (main_arg7 : FVec F S40 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x40 .f32 := Host.absf main_arg6
  let main_cst_8 : FVec F S_ .f32 := constant S_ .f32 0x7F800000#32
  let main_v25 : FVec F S128x40 .f32 := broadcastInDim S128x40 ![] bcast_S_S128x40 main_cst_8
  let main_v26 : IVec S128x40 1 := cmpf .olt main_v24 main_v25
  let main_c_9 : IVec S_ 1 := constantI S_ 1 1#1
  let main_v27 : IVec S_ 1 := (fun x v => Host.reduce IntOp.andi x v reducesTo_S128x40_S_d0_1 h_S_) main_v26 main_c_9
  let main_v28 : IVec S_ 1 := andi main_v23 main_v27
  let main_v29 : FVec F S40 .f32 := Host.absf main_arg7
  let main_cst_10 : FVec F S_ .f32 := constant S_ .f32 0x7F800000#32
  let main_v30 : FVec F S40 .f32 := broadcastInDim S40 ![] bcast_S_S40 main_cst_10
  let main_v31 : IVec S40 1 := cmpf .olt main_v29 main_v30
  let main_c_11 : IVec S_ 1 := constantI S_ 1 1#1
  let main_v32 : IVec S_ 1 := (fun x v => Host.reduce IntOp.andi x v reducesTo_S40_S_d0 h_S_) main_v31 main_c_11
  let main_v33 : IVec S_ 1 := andi main_v28 main_v32
  main_v33

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128 .f32) (main_arg6 : FVec F S128x40 .f32) (main_arg7 : FVec F S40 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S5000x128 : Shape := ⟨2, ![5000, 128]⟩
abbrev S850000x128 : Shape := ⟨2, ![850000, 128]⟩
abbrev S1x128 : Shape := ⟨2, ![1, 128]⟩
abbrev S50000x40 : Shape := ⟨2, ![50000, 40]⟩
abbrev S5000x40 : Shape := ⟨2, ![5000, 40]⟩
abbrev S850000x40 : Shape := ⟨2, ![850000, 40]⟩
abbrev S1x40 : Shape := ⟨2, ![1, 40]⟩

abbrev nBuf : Space → Nat
  | .hbm => 113
  | .vmem => 15
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x40, .f32⟩
  | .hbm, ⟨7, _⟩ => ⟨S40, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S50000, .i32⟩
  | .hbm, ⟨13, _⟩ => ⟨S850000, .i32⟩
  | .hbm, ⟨14, _⟩ => ⟨S850000, .i32⟩
  | .hbm, ⟨15, _⟩ => ⟨S_, .f32⟩
  | .hbm, ⟨16, _⟩ => ⟨S850000, .f32⟩
  | .hbm, ⟨17, _⟩ => ⟨S_, .f32⟩
  | .hbm, ⟨18, _⟩ => ⟨S50000, .f32⟩
  | .hbm, ⟨19, _⟩ => ⟨S850000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S50000, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S_, .i32⟩
  | .hbm, ⟨29, _⟩ => ⟨S850000, .i32⟩
  | .hbm, ⟨30, _⟩ => ⟨S850000, .i1⟩
  | .hbm, ⟨31, _⟩ => ⟨S_, .i32⟩
  | .hbm, ⟨32, _⟩ => ⟨S850000, .i32⟩
  | .hbm, ⟨33, _⟩ => ⟨S850000, .i32⟩
  | .hbm, ⟨34, _⟩ => ⟨S850000, .i32⟩
  | .hbm, ⟨35, _⟩ => ⟨S850000x1, .i32⟩
  | .hbm, ⟨36, _⟩ => ⟨S850000, .f32⟩
  | .hbm, ⟨37, _⟩ => ⟨S_, .i32⟩
  | .hbm, ⟨38, _⟩ => ⟨S850000, .i32⟩
  | .hbm, ⟨39, _⟩ => ⟨S850000, .i1⟩
  | .hbm, ⟨40, _⟩ => ⟨S_, .i32⟩
  | .hbm, ⟨41, _⟩ => ⟨S850000, .i32⟩
  | .hbm, ⟨42, _⟩ => ⟨S850000, .i32⟩
  | .hbm, ⟨43, _⟩ => ⟨S850000, .i32⟩
  | .hbm, ⟨44, _⟩ => ⟨S850000x1, .i32⟩
  | .hbm, ⟨45, _⟩ => ⟨S850000, .f32⟩
  | .hbm, ⟨46, _⟩ => ⟨S850000, .f32⟩
  | .hbm, ⟨47, _⟩ => ⟨S50000x128, .f32⟩
  | .hbm, ⟨48, _⟩ => ⟨S_, .i32⟩
  | .hbm, ⟨49, _⟩ => ⟨S850000, .i32⟩
  | .hbm, ⟨50, _⟩ => ⟨S850000, .i1⟩
  | .hbm, ⟨51, _⟩ => ⟨S_, .i32⟩
  | .hbm, ⟨52, _⟩ => ⟨S850000, .i32⟩
  | .hbm, ⟨53, _⟩ => ⟨S850000, .i32⟩
  | .hbm, ⟨54, _⟩ => ⟨S850000, .i32⟩
  | .hbm, ⟨55, _⟩ => ⟨S850000x1, .i32⟩
  | .hbm, ⟨56, _⟩ => ⟨S850000x128, .f32⟩
  | .hbm, ⟨57, _⟩ => ⟨S850000x1, .f32⟩
  | .hbm, ⟨58, _⟩ => ⟨S850000x128, .f32⟩
  | .hbm, ⟨59, _⟩ => ⟨S850000x128, .f32⟩
  | .hbm, ⟨60, _⟩ => ⟨S_, .f32⟩
  | .hbm, ⟨61, _⟩ => ⟨S50000x128, .f32⟩
  | .hbm, ⟨62, _⟩ => ⟨S850000x1, .i32⟩
  | .hbm, ⟨63, _⟩ => ⟨S50000x128, .f32⟩
  | .hbm, ⟨64, _⟩ => ⟨S1x128, .f32⟩
  | .hbm, ⟨65, _⟩ => ⟨S50000x128, .f32⟩
  | .hbm, ⟨66, _⟩ => ⟨S50000x128, .f32⟩
  | .hbm, ⟨67, _⟩ => ⟨S_, .f32⟩
  | .hbm, ⟨68, _⟩ => ⟨S50000x128, .f32⟩
  | .hbm, ⟨69, _⟩ => ⟨S50000x128, .f32⟩
  | .hbm, ⟨70, _⟩ => ⟨S50000x128, .f32⟩
  | .hbm, ⟨71, _⟩ => ⟨S_, .i32⟩
  | .hbm, ⟨72, _⟩ => ⟨S850000, .i32⟩
  | .hbm, ⟨73, _⟩ => ⟨S850000, .i1⟩
  | .hbm, ⟨74, _⟩ => ⟨S_, .i32⟩
  | .hbm, ⟨75, _⟩ => ⟨S850000, .i32⟩
  | .hbm, ⟨76, _⟩ => ⟨S850000, .i32⟩
  | .hbm, ⟨77, _⟩ => ⟨S850000, .i32⟩
  | .hbm, ⟨78, _⟩ => ⟨S850000x1, .i32⟩
  | .hbm, ⟨79, _⟩ => ⟨S850000x128, .f32⟩
  | .hbm, ⟨80, _⟩ => ⟨S850000x1, .f32⟩
  | .hbm, ⟨81, _⟩ => ⟨S850000x128, .f32⟩
  | .hbm, ⟨82, _⟩ => ⟨S850000x128, .f32⟩
  | .hbm, ⟨83, _⟩ => ⟨S_, .f32⟩
  | .hbm, ⟨84, _⟩ => ⟨S50000x128, .f32⟩
  | .hbm, ⟨85, _⟩ => ⟨S850000x1, .i32⟩
  | .hbm, ⟨86, _⟩ => ⟨S50000x128, .f32⟩
  | .hbm, ⟨87, _⟩ => ⟨S1x128, .f32⟩
  | .hbm, ⟨88, _⟩ => ⟨S50000x128, .f32⟩
  | .hbm, ⟨89, _⟩ => ⟨S50000x128, .f32⟩
  | .hbm, ⟨90, _⟩ => ⟨S_, .f32⟩
  | .hbm, ⟨91, _⟩ => ⟨S50000x128, .f32⟩
  | .hbm, ⟨92, _⟩ => ⟨S50000x128, .f32⟩
  | .hbm, ⟨93, _⟩ => ⟨S50000x40, .f32⟩
  | .hbm, ⟨94, _⟩ => ⟨S_, .i32⟩
  | .hbm, ⟨95, _⟩ => ⟨S850000, .i32⟩
  | .hbm, ⟨96, _⟩ => ⟨S850000, .i1⟩
  | .hbm, ⟨97, _⟩ => ⟨S_, .i32⟩
  | .hbm, ⟨98, _⟩ => ⟨S850000, .i32⟩
  | .hbm, ⟨99, _⟩ => ⟨S850000, .i32⟩
  | .hbm, ⟨100, _⟩ => ⟨S850000, .i32⟩
  | .hbm, ⟨101, _⟩ => ⟨S850000x1, .i32⟩
  | .hbm, ⟨102, _⟩ => ⟨S850000x40, .f32⟩
  | .hbm, ⟨103, _⟩ => ⟨S850000x1, .f32⟩
  | .hbm, ⟨104, _⟩ => ⟨S850000x40, .f32⟩
  | .hbm, ⟨105, _⟩ => ⟨S850000x40, .f32⟩
  | .hbm, ⟨106, _⟩ => ⟨S_, .f32⟩
  | .hbm, ⟨107, _⟩ => ⟨S50000x40, .f32⟩
  | .hbm, ⟨108, _⟩ => ⟨S850000x1, .i32⟩
  | .hbm, ⟨109, _⟩ => ⟨S50000x40, .f32⟩
  | .hbm, ⟨110, _⟩ => ⟨S1x40, .f32⟩
  | .hbm, ⟨111, _⟩ => ⟨S50000x40, .f32⟩
  | .hbm, ⟨112, _⟩ => ⟨S50000x40, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x40, .f32⟩
  | .local _ .vmem, ⟨13, _⟩ => ⟨S5000x40, .f32⟩
  | .local _ .vmem, ⟨14, _⟩ => ⟨S5000x40, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_8 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_call1_cst : Ref sig .tc := ⟨.hbm, 67, rfl⟩
abbrev main_call1_v0 : Ref sig .tc := ⟨.hbm, 68, rfl⟩
abbrev main_v48 : Ref sig .tc := ⟨.hbm, 69, rfl⟩
abbrev main_v49 : Ref sig .tc := ⟨.hbm, 70, rfl⟩
abbrev main_c_9 : Ref sig .tc := ⟨.hbm, 71, rfl⟩
abbrev main_v50 : Ref sig .tc := ⟨.hbm, 72, rfl⟩
abbrev main_v51 : Ref sig .tc := ⟨.hbm, 73, rfl⟩
abbrev main_c_10 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_11 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_call2_cst : Ref sig .tc := ⟨.hbm, 90, rfl⟩
abbrev main_call2_v0 : Ref sig .tc := ⟨.hbm, 91, rfl⟩
abbrev main_v66 : Ref sig .tc := ⟨.hbm, 92, rfl⟩
abbrev main_v67 : Ref sig .tc := ⟨.hbm, 93, rfl⟩
abbrev main_c_12 : Ref sig .tc := ⟨.hbm, 94, rfl⟩
abbrev main_v68 : Ref sig .tc := ⟨.hbm, 95, rfl⟩
abbrev main_v69 : Ref sig .tc := ⟨.hbm, 96, rfl⟩
abbrev main_c_13 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_cst_14 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x40 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x40 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  shapeCasts_S5000x128_S5000x128 : S5000x128.ShapeCasts S5000x128
  inb_S128x40_S128x40_0_0 : ∀ a, (![0, 0] : Fin 2 → Nat) a + S128x40.size a ≤ S128x40.size a
  h_S128x40 : 0 < S128x40.numel
  inb_S5000x40_S5000x40_0_0 : ∀ a, (![0, 0] : Fin 2 → Nat) a + S5000x40.size a ≤ S5000x40.size a
  h_S5000x40 : 0 < S5000x40.numel
  bcast_S850000x1_S850000x40_0_1 : S850000x1.BroadcastsInDim S850000x40 (![0, 1] : Fin 2 → Fin S850000x40.rank)
  bcast_S_S50000x40 : S_.BroadcastsInDim S50000x40 (![] : Fin 0 → Fin S50000x40.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x128_S128x128_S5000x128_1_0_0_1_n_n_wf : DotDims.WF S5000x128 S128x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S5000x128_S128x40_S5000x40_1_0_0_1_n_n_wf : DotDims.WF S5000x128 S128x40 S5000x40 [1] [0] [0] [1] [] []
  gather_S50000x40_S850000x1_S850000x40_1_0_n_n_0_1_140_wf : GatherDims.WF S50000x40 S850000x1 S850000x40 [1] [0] [] [0] [] 1 ![1, 40]
  scatter_S50000x40_S850000x1_S850000x40_1_0_0_1_wf : ScatterDims.WF S50000x40 S850000x1 S850000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x40.size a ≤ S128x40.size a
  hwx2_1 : ∀ i : grid2.Coords, EltTy.bits .f32 = 32 ∨ (Rect.block (s := S128x40) S128x40.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x40.size a ≤ S50000x40.size a
  hwx2_2 : ∀ i : grid2.Coords, EltTy.bits .f32 = 32 ∨ (Rect.block (s := S50000x40) S5000x40.size (cc2_transform_2 i) (hinb2_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S5000x128_S128x40_S5000x40_1_0_0_1_n_n : DotDims S5000x128 S128x40 S5000x40 where
  lhsContracting := [1]
  rhsContracting := [0]
  lhsNonContracting := [0]
  rhsNonContracting := [1]
  lhsBatch := []
  rhsBatch := []
  wf := dot_S5000x128_S128x40_S5000x40_1_0_0_1_n_n_wf
def gather_S50000x40_S850000x1_S850000x40_1_0_n_n_0_1_140 : GatherDims S50000x40 S850000x1 S850000x40 where
  offsetDims := [1]
  collapsedSliceDims := [0]
  operandBatchingDims := []
  startIndicesBatchingDims := []
  startIndexMap := [0]
  indexVectorDim := 1
  sliceSizes := ![1, 40]
  wf := gather_S50000x40_S850000x1_S850000x40_1_0_n_n_0_1_140_wf
def scatter_S50000x40_S850000x1_S850000x40_1_0_0_1 : ScatterDims S50000x40 S850000x1 S850000x40 where
  updateWindowDims := [1]
  insertedWindowDims := [0]
  scatterDimsToOperandDims := [0]
  indexVectorDim := 1
  wf := scatter_S50000x40_S850000x1_S850000x40_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v48) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v49) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v66) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S128x40.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v67) S5000x40.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S50000x40 : Shape := ⟨2, ![50000, 40]⟩
abbrev S850000x40 : Shape := ⟨2, ![850000, 40]⟩
abbrev S1x40 : Shape := ⟨2, ![1, 40]⟩

abbrev nBuf : Space → Nat
  | .hbm => 183
  | .vmem => 0
  | .smem => 0
  | _ => 0

abbrev hbmTy0_0 (i : Nat) : BufTy := match i % 128 with
  | 0 => ⟨S50000x128, .f32⟩
  | 1 => ⟨S2x800000, .i32⟩
  | 2 => ⟨S128x128, .f32⟩
  | 3 => ⟨S128, .f32⟩
  | 4 => ⟨S128x128, .f32⟩
  | 5 => ⟨S128, .f32⟩
  | 6 => ⟨S128x40, .f32⟩
  | 7 => ⟨S40, .f32⟩
  | 8 => ⟨S1x800000, .i32⟩
  | 9 => ⟨S800000, .i32⟩
  | 10 => ⟨S1x800000, .i32⟩
  | 11 => ⟨S800000, .i32⟩
  | 12 => ⟨S50000x128, .f32⟩
  | 13 => ⟨S50000, .i32⟩
  | 14 => ⟨S850000, .i32⟩
  | 15 => ⟨S850000, .i32⟩
  | 16 => ⟨S_, .f32⟩
  | 17 => ⟨S850000, .f32⟩
  | 18 => ⟨S_, .f32⟩
  | 19 => ⟨S50000, .f32⟩
  | 20 => ⟨S850000x1, .i32⟩
  | 21 => ⟨S50000, .f32⟩
  | 22 => ⟨S_, .f32⟩
  | 23 => ⟨S50000, .f32⟩
  | 24 => ⟨S50000, .i1⟩
  | 25 => ⟨S50000, .f32⟩
  | 26 => ⟨S_, .f32⟩
  | 27 => ⟨S50000, .f32⟩
  | 28 => ⟨S50000, .f32⟩
  | 29 => ⟨S_, .i32⟩
  | 30 => ⟨S850000, .i32⟩
  | 31 => ⟨S850000, .i1⟩
  | 32 => ⟨S_, .i32⟩
  | 33 => ⟨S850000, .i32⟩
  | 34 => ⟨S850000, .i32⟩
  | 35 => ⟨S850000, .i32⟩
  | 36 => ⟨S850000x1, .i32⟩
  | 37 => ⟨S850000, .f32⟩
  | 38 => ⟨S_, .i32⟩
  | 39 => ⟨S850000, .i32⟩
  | 40 => ⟨S850000, .i1⟩
  | 41 => ⟨S_, .i32⟩
  | 42 => ⟨S850000, .i32⟩
  | 43 => ⟨S850000, .i32⟩
  | 44 => ⟨S850000, .i32⟩
  | 45 => ⟨S850000x1, .i32⟩
  | 46 => ⟨S850000, .f32⟩
  | 47 => ⟨S850000, .f32⟩
  | 48 => ⟨S_, .i32⟩
  | 49 => ⟨S850000, .i32⟩
  | 50 => ⟨S850000, .i1⟩
  | 51 => ⟨S_, .i32⟩
  | 52 => ⟨S850000, .i32⟩
  | 53 => ⟨S850000, .i32⟩
  | 54 => ⟨S850000, .i32⟩
  | 55 => ⟨S850000x1, .i32⟩
  | 56 => ⟨S850000x128, .f32⟩
  | 57 => ⟨S850000x1, .f32⟩
  | 58 => ⟨S850000x128, .f32⟩
  | 59 => ⟨S850000x128, .f32⟩
  | 60 => ⟨S_, .f32⟩
  | 61 => ⟨S50000x128, .f32⟩
  | 62 => ⟨S850000x1, .i32⟩
  | 63 => ⟨S50000x128, .f32⟩
  | 64 => ⟨S1x128, .f32⟩
  | 65 => ⟨S50000x128, .f32⟩
  | 66 => ⟨S50000x128, .f32⟩
  | 67 => ⟨S_, .f32⟩
  | 68 => ⟨S50000x128, .f32⟩
  | 69 => ⟨S50000x128, .f32⟩
  | 70 => ⟨S50000x128, .f32⟩
  | 71 => ⟨S50000, .i32⟩
  | 72 => ⟨S850000, .i32⟩
  | 73 => ⟨S850000, .i32⟩
  | 74 => ⟨S_, .f32⟩
  | 75 => ⟨S850000, .f32⟩
  | 76 => ⟨S_, .f32⟩
  | 77 => ⟨S50000, .f32⟩
  | 78 => ⟨S850000x1, .i32⟩
  | 79 => ⟨S50000, .f32⟩
  | 80 => ⟨S_, .f32⟩
  | 81 => ⟨S50000, .f32⟩
  | 82 => ⟨S50000, .i1⟩
  | 83 => ⟨S50000, .f32⟩
  | 84 => ⟨S_, .f32⟩
  | 85 => ⟨S50000, .f32⟩
  | 86 => ⟨S50000, .f32⟩
  | 87 => ⟨S_, .i32⟩
  | 88 => ⟨S850000, .i32⟩
  | 89 => ⟨S850000, .i1⟩
  | 90 => ⟨S_, .i32⟩
  | 91 => ⟨S850000, .i32⟩
  | 92 => ⟨S850000, .i32⟩
  | 93 => ⟨S850000, .i32⟩
  | 94 => ⟨S850000x1, .i32⟩
  | 95 => ⟨S850000, .f32⟩
  | 96 => ⟨S_, .i32⟩
  | 97 => ⟨S850000, .i32⟩
  | 98 => ⟨S850000, .i1⟩
  | 99 => ⟨S_, .i32⟩
  | 100 => ⟨S850000, .i32⟩
  | 101 => ⟨S850000, .i32⟩
  | 102 => ⟨S850000, .i32⟩
  | 103 => ⟨S850000x1, .i32⟩
  | 104 => ⟨S850000, .f32⟩
  | 105 => ⟨S850000, .f32⟩
  | 106 => ⟨S_, .i32⟩
  | 107 => ⟨S850000, .i32⟩
  | 108 => ⟨S850000, .i1⟩
  | 109 => ⟨S_, .i32⟩
  | 110 => ⟨S850000, .i32⟩
  | 111 => ⟨S850000, .i32⟩
  | 112 => ⟨S850000, .i32⟩
  | 113 => ⟨S850000x1, .i32⟩
  | 114 => ⟨S850000x128, .f32⟩
  | 115 => ⟨S850000x1, .f32⟩
  | 116 => ⟨S850000x128, .f32⟩
  | 117 => ⟨S850000x128, .f32⟩
  | 118 => ⟨S_, .f32⟩
  | 119 => ⟨S50000x128, .f32⟩
  | 120 => ⟨S850000x1, .i32⟩
  | 121 => ⟨S50000x128, .f32⟩
  | 122 => ⟨S1x128, .f32⟩
  | 123 => ⟨S50000x128, .f32⟩
  | 124 => ⟨S50000x128, .f32⟩
  | 125 => ⟨S_, .f32⟩
  | 126 => ⟨S50000x128, .f32⟩
  | 127 => ⟨S50000x128, .f32⟩
  | _ => ⟨S50000x128, .f32⟩

abbrev hbmTy0_1 (i : Nat) : BufTy := match i % 128 with
  | 0 => ⟨S50000x40, .f32⟩
  | 1 => ⟨S50000, .i32⟩
  | 2 => ⟨S850000, .i32⟩
  | 3 => ⟨S850000, .i32⟩
  | 4 => ⟨S_, .f32⟩
  | 5 => ⟨S850000, .f32⟩
  | 6 => ⟨S_, .f32⟩
  | 7 => ⟨S50000, .f32⟩
  | 8 => ⟨S850000x1, .i32⟩
  | 9 => ⟨S50000, .f32⟩
  | 10 => ⟨S_, .f32⟩
  | 11 => ⟨S50000, .f32⟩
  | 12 => ⟨S50000, .i1⟩
  | 13 => ⟨S50000, .f32⟩
  | 14 => ⟨S_, .f32⟩
  | 15 => ⟨S50000, .f32⟩
  | 16 => ⟨S50000, .f32⟩
  | 17 => ⟨S_, .i32⟩
  | 18 => ⟨S850000, .i32⟩
  | 19 => ⟨S850000, .i1⟩
  | 20 => ⟨S_, .i32⟩
  | 21 => ⟨S850000, .i32⟩
  | 22 => ⟨S850000, .i32⟩
  | 23 => ⟨S850000, .i32⟩
  | 24 => ⟨S850000x1, .i32⟩
  | 25 => ⟨S850000, .f32⟩
  | 26 => ⟨S_, .i32⟩
  | 27 => ⟨S850000, .i32⟩
  | 28 => ⟨S850000, .i1⟩
  | 29 => ⟨S_, .i32⟩
  | 30 => ⟨S850000, .i32⟩
  | 31 => ⟨S850000, .i32⟩
  | 32 => ⟨S850000, .i32⟩
  | 33 => ⟨S850000x1, .i32⟩
  | 34 => ⟨S850000, .f32⟩
  | 35 => ⟨S850000, .f32⟩
  | 36 => ⟨S_, .i32⟩
  | 37 => ⟨S850000, .i32⟩
  | 38 => ⟨S850000, .i1⟩
  | 39 => ⟨S_, .i32⟩
  | 40 => ⟨S850000, .i32⟩
  | 41 => ⟨S850000, .i32⟩
  | 42 => ⟨S850000, .i32⟩
  | 43 => ⟨S850000x1, .i32⟩
  | 44 => ⟨S850000x40, .f32⟩
  | 45 => ⟨S850000x1, .f32⟩
  | 46 => ⟨S850000x40, .f32⟩
  | 47 => ⟨S850000x40, .f32⟩
  | 48 => ⟨S_, .f32⟩
  | 49 => ⟨S50000x40, .f32⟩
  | 50 => ⟨S850000x1, .i32⟩
  | 51 => ⟨S50000x40, .f32⟩
  | 52 => ⟨S1x40, .f32⟩
  | 53 => ⟨S50000x40, .f32⟩
  | 54 => ⟨S50000x40, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_c : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_c_4 : Ref sig .tc := ⟨.hbm, 38, rfl⟩
abbrev main_v24 : Ref sig .tc := ⟨.hbm, 39, rfl⟩
abbrev main_v25 : Ref sig .tc := ⟨.hbm, 40, rfl⟩
abbrev main_c_5 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_8 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_call1_cst : Ref sig .tc := ⟨.hbm, 67, rfl⟩
abbrev main_call1_v0 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_9 : Ref sig .tc := ⟨.hbm, 74, rfl⟩
abbrev main_v53 : Ref sig .tc := ⟨.hbm, 75, rfl⟩
abbrev main_cst_10 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_11 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst_12 : Ref sig .tc := ⟨.hbm, 84, rfl⟩
abbrev main_v60 : Ref sig .tc := ⟨.hbm, 85, rfl⟩
abbrev main_v61 : Ref sig .tc := ⟨.hbm, 86, rfl⟩
abbrev main_c_13 : Ref sig .tc := ⟨.hbm, 87, rfl⟩
abbrev main_v62 : Ref sig .tc := ⟨.hbm, 88, rfl⟩
abbrev main_v63 : Ref sig .tc := ⟨.hbm, 89, rfl⟩
abbrev main_c_14 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_c_15 : Ref sig .tc := ⟨.hbm, 96, rfl⟩
abbrev main_v69 : Ref sig .tc := ⟨.hbm, 97, rfl⟩
abbrev main_v70 : Ref sig .tc := ⟨.hbm, 98, rfl⟩
abbrev main_c_16 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_c_17 : Ref sig .tc := ⟨.hbm, 106, rfl⟩
abbrev main_v77 : Ref sig .tc := ⟨.hbm, 107, rfl⟩
abbrev main_v78 : Ref sig .tc := ⟨.hbm, 108, rfl⟩
abbrev main_c_18 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_cst_19 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_call3_cst : Ref sig .tc := ⟨.hbm, 125, rfl⟩
abbrev main_call3_v0 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_cst_20 : Ref sig .tc := ⟨.hbm, 132, rfl⟩
abbrev main_v98 : Ref sig .tc := ⟨.hbm, 133, rfl⟩
abbrev main_cst_21 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_cst_22 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_cst_23 : Ref sig .tc := ⟨.hbm, 142, rfl⟩
abbrev main_v105 : Ref sig .tc := ⟨.hbm, 143, rfl⟩
abbrev main_v106 : Ref sig .tc := ⟨.hbm, 144, rfl⟩
abbrev main_c_24 : Ref sig .tc := ⟨.hbm, 145, rfl⟩
abbrev main_v107 : Ref sig .tc := ⟨.hbm, 146, rfl⟩
abbrev main_v108 : Ref sig .tc := ⟨.hbm, 147, rfl⟩
abbrev main_c_25 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_c_26 : Ref sig .tc := ⟨.hbm, 154, rfl⟩
abbrev main_v114 : Ref sig .tc := ⟨.hbm, 155, rfl⟩
abbrev main_v115 : Ref sig .tc := ⟨.hbm, 156, rfl⟩
abbrev main_c_27 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_c_28 : Ref sig .tc := ⟨.hbm, 164, rfl⟩
abbrev main_v122 : Ref sig .tc := ⟨.hbm, 165, rfl⟩
abbrev main_v123 : Ref sig .tc := ⟨.hbm, 166, rfl⟩
abbrev main_c_29 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩
abbrev main_cst_30 : Ref sig .tc := ⟨.hbm, 176, rfl⟩
abbrev main_v132 : Ref sig .tc := ⟨.hbm, 177, rfl⟩
abbrev main_v133 : Ref sig .tc := ⟨.hbm, 178, rfl⟩
abbrev main_v134 : Ref sig .tc := ⟨.hbm, 179, rfl⟩
abbrev main_v135 : Ref sig .tc := ⟨.hbm, 180, rfl⟩
abbrev main_v136 : Ref sig .tc := ⟨.hbm, 181, rfl⟩
abbrev main_v137 : Ref sig .tc := ⟨.hbm, 182, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S850000x1_S850000x40_0_1 : S850000x1.BroadcastsInDim S850000x40 (![0, 1] : Fin 2 → Fin S850000x40.rank)
  bcast_S_S50000x40 : S_.BroadcastsInDim S50000x40 (![] : Fin 0 → Fin S50000x40.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  dot_S50000x128_S128x128_S50000x128_1_0_0_1_n_n_wf : DotDims.WF S50000x128 S128x128 S50000x128 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x40_S50000x40_1_0_0_1_n_n_wf : DotDims.WF S50000x128 S128x40 S50000x40 [1] [0] [0] [1] [] []
  gather_S50000x40_S850000x1_S850000x40_1_0_n_n_0_1_140_wf : GatherDims.WF S50000x40 S850000x1 S850000x40 [1] [0] [] [0] [] 1 ![1, 40]
  scatter_S50000x40_S850000x1_S850000x40_1_0_0_1_wf : ScatterDims.WF S50000x40 S850000x1 S850000x40 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x40_S50000x40_1_0_0_1_n_n : DotDims S50000x128 S128x40 S50000x40 where
  lhsContracting := [1]
  rhsContracting := [0]
  lhsNonContracting := [0]
  rhsNonContracting := [1]
  lhsBatch := []
  rhsBatch := []
  wf := dot_S50000x128_S128x40_S50000x40_1_0_0_1_n_n_wf
def gather_S50000x40_S850000x1_S850000x40_1_0_n_n_0_1_140 : GatherDims S50000x40 S850000x1 S850000x40 where
  offsetDims := [1]
  collapsedSliceDims := [0]
  operandBatchingDims := []
  startIndicesBatchingDims := []
  startIndexMap := [0]
  indexVectorDim := 1
  sliceSizes := ![1, 40]
  wf := gather_S50000x40_S850000x1_S850000x40_1_0_n_n_0_1_140_wf
def scatter_S50000x40_S850000x1_S850000x40_1_0_0_1 : ScatterDims S50000x40 S850000x1 S850000x40 where
  updateWindowDims := [1]
  insertedWindowDims := [0]
  scatterDimsToOperandDims := [0]
  indexVectorDim := 1
  wf := scatter_S50000x40_S850000x1_S850000x40_1_0_0_1_wf

class Facts : Prop extends Facts₀ where

variable [Facts]
-- ==== Proof.Spec.lean ====
/-
  Three graph-convolution layers as ONE function of the argument arrays.

  The graph has 50000 nodes and 800000 directed edges `(s_e, d_e)`, given as the two rows of an integer array, to which one
  self-loop per node is appended: 850000 edges in all. With `deg(v)` the number of edges ending at `v`,
  `dis(v) = deg(v)^(-1/2)` where the degree is positive and `0` elsewhere, and `norm(e) = dis(s_e) · dis(d_e)`, one layer sends a
  node-feature array `h` (already multiplied by the layer's weight matrix) to
      `agg(h)(v, f) = (∑ over the edges e ending at v of h(s_e, f) · norm(e)) + b(f)`,
  a scatter-add of the gathered, scaled rows into a zero array, plus the bias row. The network is
      `agg₃ ((relu (agg₂ ((relu (agg₁ (x · W₁))) · W₂))) · W₃)`
  with `relu = max(·, 0)`, the products the host's `dot_general` contracting the feature axis. A negative node number is
  wrapped once by the node count before it is used as a gather index, as jnp's indexing does.

  Everything here is stated over the reference program's own shapes and dimension records, operation for operation in the order
  the reference applies them, so that the reference's composed term is this function by unfolding.
-/
import proofs.«178425_j31207232372931_1_alg».proof.ReferenceIdeal
import proofs.«178425_j31207232372931_1_alg».proof.Proof.Gen.ReferenceIdeal

noncomputable section

namespace Cert.GraphConv

open Cert.ReferenceIdeal Cert.ReferenceIdeal.Gen Idealize.ShloMosaic

variable {F : FTy → Type} [FloatOps F]

/-- The edge array's contents: row 0 the sources, row 1 the destinations. -/
abbrev Edges (F : FTy → Type) : Type := (⟨S2x800000, .i32⟩ : BufTy).Contents (Elt F)

/-- The source node of each of the 850000 edges: row 0 of the edge array, then the self-loops `0, 1, …, 49999`. -/
def src (e : Edges F) : (⟨S850000, .i32⟩ : BufTy).Contents (Elt F) :=
  (concatenate S850000 0 [⟨S800000, (shapeCast _ (extractStridedSlice S1x800000 ![0, 0] e slices_S2x800000_S1x800000_0_0) shapeCasts_S1x800000_S800000)⟩, ⟨S50000, (iotaInDim S50000 32 0)⟩] concatenates_S800000_S50000_S850000_d0)

/-- The destination node of each edge: row 1 of the edge array, then the self-loops. -/
def dst (e : Edges F) : (⟨S850000, .i32⟩ : BufTy).Contents (Elt F) :=
  (concatenate S850000 0 [⟨S800000, (shapeCast _ (extractStridedSlice S1x800000 ![1, 0] e slices_S2x800000_S1x800000_1_0) shapeCasts_S1x800000_S800000)⟩, ⟨S50000, (iotaInDim S50000 32 0)⟩] concatenates_S800000_S50000_S850000_d0)

/-- A node number used as a gather index: a negative one is taken from the end, `v + 50000`. -/
def wrap (v : (⟨S850000, .i32⟩ : BufTy).Contents (Elt F)) : (⟨S850000, .i32⟩ : BufTy).Contents (Elt F) :=
  (select (cmpi .slt v (broadcastInDim S850000 ![] bcast_S_S850000 (constantI S_ 32 0#32))) (addi v (broadcastInDim S850000 ![] bcast_S_S850000 (constantI S_ 32 50000#32))) v)

/-- `deg(v)`: a one added at `v` for every edge ending there. -/
def deg (e : Edges F) : FVec F S50000 .f32 :=
  (Host.scatterAdd scatter_S50000_S850000x1_S850000_n_0_0_1 (broadcastInDim S50000 ![] bcast_S_S50000 (constant S_ .f32 0x00000000#32)) (broadcastInDim S850000x1 ![0] bcast_S850000_S850000x1_0 (dst e)) (broadcastInDim S850000 ![] bcast_S_S850000 (constant S_ .f32 0x3F800000#32)))

/-- `dis(v) = deg(v)^(-1/2)` where `deg(v) > 0`, and `0` elsewhere. -/
def dis (e : Edges F) : FVec F S50000 .f32 :=
  (select (cmpf (F := F) .ogt (deg e) (broadcastInDim S50000 ![] bcast_S_S50000 (constant S_ .f32 0x00000000#32))) (Host.rsqrt (deg e)) (broadcastInDim S50000 ![] bcast_S_S50000 (constant S_ .f32 0x00000000#32)))

/-- `norm(e) = dis(s_e) · dis(d_e)`. -/
def norm (e : Edges F) : FVec F S850000 .f32 :=
  (mulf (Host.gather gather_S50000_S850000x1_S850000_n_0_n_n_0_1_1 (dis e) (broadcastInDim S850000x1 ![0] bcast_S850000_S850000x1_0 (wrap (src e)))) (Host.gather gather_S50000_S850000x1_S850000_n_0_n_n_0_1_1 (dis e) (broadcastInDim S850000x1 ![0] bcast_S850000_S850000x1_0 (wrap (dst e)))))

/-- One layer's aggregation over 128 features: the rows `h(s_e, ·) · norm(e)` added into row `d_e` of a zero array, plus the bias. -/
def agg128 (h : FVec F S50000x128 .f32) (e : Edges F) (b : FVec F S128 .f32) : FVec F S50000x128 .f32 :=
  (addf (Host.scatterAdd scatter_S50000x128_S850000x1_S850000x128_1_0_0_1 (broadcastInDim S50000x128 ![] bcast_S_S50000x128 (constant S_ .f32 0x00000000#32)) (broadcastInDim S850000x1 ![0] bcast_S850000_S850000x1_0 (dst e)) (mulf (Host.gather gather_S50000x128_S850000x1_S850000x128_1_0_n_n_0_1_1128 h (broadcastInDim S850000x1 ![0] bcast_S850000_S850000x1_0 (wrap (src e)))) (broadcastInDim S850000x128 ![0, 1] bcast_S850000x1_S850000x128_0_1 (broadcastInDim S850000x1 ![0] bcast_S850000_S850000x1_0 (norm e))))) (broadcastInDim S50000x128 ![0, 1] bcast_S1x128_S50000x128_0_1 (broadcastInDim S1x128 ![1] bcast_S128_S1x128_1 b)))

/-- The same over the 40 output classes. -/
def agg40 (h : FVec F S50000x40 .f32) (e : Edges F) (b : FVec F S40 .f32) : FVec F S50000x40 .f32 :=
  (addf (Host.scatterAdd scatter_S50000x40_S850000x1_S850000x40_1_0_0_1 (broadcastInDim S50000x40 ![] bcast_S_S50000x40 (constant S_ .f32 0x00000000#32)) (broadcastInDim S850000x1 ![0] bcast_S850000_S850000x1_0 (dst e)) (mulf (Host.gather gather_S50000x40_S850000x1_S850000x40_1_0_n_n_0_1_140 h (broadcastInDim S850000x1 ![0] bcast_S850000_S850000x1_0 (wrap (src e)))) (broadcastInDim S850000x40 ![0, 1] bcast_S850000x1_S850000x40_0_1 (broadcastInDim S850000x1 ![0] bcast_S850000_S850000x1_0 (norm e))))) (broadcastInDim S50000x40 ![0, 1] bcast_S1x40_S50000x40_0_1 (broadcastInDim S1x40 ![1] bcast_S40_S1x40_1 b)))

/-- `relu`: the maximum with zero, entry by entry. -/
def relu (h : FVec F S50000x128 .f32) : FVec F S50000x128 .f32 :=
  (maximumf h (broadcastInDim S50000x128 ![] bcast_S_S50000x128 (constant S_ .f32 0x00000000#32)))

/-- The product with a 128 × 128 weight matrix, contracting the feature axis. -/
def lin128 (h : FVec F S50000x128 .f32) (w : FVec F S128x128 .f32) : FVec F S50000x128 .f32 :=
  (Host.dotGeneral dot_S50000x128_S128x128_S50000x128_1_0_0_1_n_n none h w)

/-- The product with the 128 × 40 weight matrix of the last layer. -/
def lin40 (h : FVec F S50000x128 .f32) (w : FVec F S128x40 .f32) : FVec F S50000x40 .f32 :=
  (Host.dotGeneral dot_S50000x128_S128x40_S50000x40_1_0_0_1_n_n none h w)

/-- The first layer with its activation. -/
def act1 (x : FVec F S50000x128 .f32) (e : Edges F) (w1 : FVec F S128x128 .f32) (b1 : FVec F S128 .f32) : FVec F S50000x128 .f32 :=
  relu (agg128 (lin128 x w1) e b1)

/-- The first two layers with their activations. -/
def act2 (x : FVec F S50000x128 .f32) (e : Edges F) (w1 : FVec F S128x128 .f32) (b1 : FVec F S128 .f32)
    (w2 : FVec F S128x128 .f32) (b2 : FVec F S128 .f32) : FVec F S50000x128 .f32 :=
  relu (agg128 (lin128 (act1 x e w1 b1) w2) e b2)

/-- The network: three layers, the last without activation. -/
def net (x : FVec F S50000x128 .f32) (e : Edges F) (w1 : FVec F S128x128 .f32) (b1 : FVec F S128 .f32)
    (w2 : FVec F S128x128 .f32) (b2 : FVec F S128 .f32) (w3 : FVec F S128x40 .f32) (b3 : FVec F S40 .f32) : FVec F S50000x40 .f32 :=
  agg40 (lin40 (act2 x e w1 b1 w2 b2) w3) e b3

end Cert.GraphConv

end
-- ==== Proof.RefIsSpec.lean ====
/-
  The reference program computes the three-layer network of `GraphConv.net`.

  The reference's result, as its run states it, is the composition of its host operations applied to the launch contents of
  the arguments, every shared value (the edge lists with their self-loops, the degrees, the edge weights) written out at each
  use. `GraphConv.net` is the same composition with those shared values named; unfolding the names gives the same term.
-/
import proofs.«178425_j31207232372931_1_alg».proof.Proof.RefRun
import proofs.«178425_j31207232372931_1_alg».proof.Proof.Spec

set_option maxRecDepth 16384

noncomputable section

namespace Cert.ReferenceIdeal.RefValue

open Cert.ReferenceIdeal Cert.ReferenceIdeal.Gen Cert.GraphConv Idealize.ShloMosaic Idealize.ShloMosaic.TcCoe Idealize.SL.Sem

variable {F : FTy → Type} [FloatOps F]

/-- The reference's result is the network applied to the arguments' launch contents. -/
theorem result_eq (m : (ℓ : Loc nD τ sig) → Buf (Elt F) ℓ) (c : Dev nD) :
    Cert.ReferenceIdeal.ValueP.res_main_v137 m c
      = net (F := F) (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7)) := by
  unfold Cert.ReferenceIdeal.ValueP.res_main_v137 net act2 act1 agg40 agg128 lin40 lin128 relu norm dis deg wrap src dst
  rfl

end Cert.ReferenceIdeal.RefValue

end
-- ==== Proof.Product.lean ====
/-
  A matrix product as a plain sum, over literal shapes.

  For a 50000 × 128 array `a` and a 128 × n array `w`, entry (r, f) of the product is `∑ k < 128, a(r, k) · w(k, f)` on the extended
  reals. Both a tiled product (row blocks of 5000) and the host's `dot_general` are this function; sums on the extended reals
  need no finiteness to be re-indexed, so nothing is assumed of the entries.
-/
import Idealize.ShloMosaic.PureOps.Ideal
import Idealize.ShloMosaic.Lib.ValueIdx

noncomputable section

namespace Cert.MatProduct

open Idealize.ShloMosaic Idealize.ShloMosaic.ValueIdx

/-- Entry (r, f) of `a · w`: the sum over the 128 contracted positions. -/
def prod (n : Nat) (a : (⟨2, ![50000, 128]⟩ : Shape).Idx → EReal) (w : (⟨2, ![128, n]⟩ : Shape).Idx → EReal) :
    (⟨2, ![50000, n]⟩ : Shape).Idx → EReal :=
  fun i => ∑ k : Fin 128, a (ix2 (⟨(i 0).val, idx2_lt0 i⟩ : Fin 50000) k) * w (ix2 k (⟨(i 1).val, idx2_lt1 i⟩ : Fin n))

theorem prod_apply (n : Nat) (a : (⟨2, ![50000, 128]⟩ : Shape).Idx → EReal) (w : (⟨2, ![128, n]⟩ : Shape).Idx → EReal)
    (i : (⟨2, ![50000, n]⟩ : Shape).Idx) :
    prod n a w i = ∑ k : Fin 128, a (ix2 (⟨(i 0).val, idx2_lt0 i⟩ : Fin 50000) k) * w (ix2 k (⟨(i 1).val, idx2_lt1 i⟩ : Fin n)) := rfl

end Cert.MatProduct

end
-- ==== Proof.DotIsProduct.lean ====
/-
  The host's `dot_general` at the reference's two product shapes is the plain sum `MatProduct.prod`.

  On the extended reals the host's contraction of a 50000 × 128 array with a 128 × n array (n = 128 or 40) is, at entry (r, f),
  the sum over the one contracted axis of left(r, k) · right(k, f); the contracted index type is re-indexed by `Fin 128`.
-/
import proofs.«178425_j31207232372931_1_alg».proof.Proof.Spec
import proofs.«178425_j31207232372931_1_alg».proof.Proof.Product
import Idealize.ShloMosaic.Lib.ValueIdx
import Idealize.ShloMosaic.PureOps.Ideal.Laws

noncomputable section

namespace Cert.GraphConv

open Cert.ReferenceIdeal Cert.ReferenceIdeal.Gen Cert.MatProduct Idealize.ShloMosaic Idealize.ShloMosaic.ValueIdx

abbrev D128 := dot_S50000x128_S128x128_S50000x128_1_0_0_1_n_n
abbrev D40 := dot_S50000x128_S128x40_S50000x40_1_0_0_1_n_n

theorem lhs128_0 (i : S50000x128.Idx) (q : D128.contr.Idx) : (D128.lhsIdx i q 0).val = (i 0).val := by
  unfold DotDims.lhsIdx
  rw [dif_neg (show ¬(0 : Fin S50000x128.rank) ∈ D128.lhsBatch by decide), dif_pos (show (0 : Fin S50000x128.rank) ∈ D128.lhsNonContracting by decide)]
  rfl
theorem lhs128_1 (i : S50000x128.Idx) (q : D128.contr.Idx) : (D128.lhsIdx i q 1).val = (q ⟨0, by decide⟩).val :=
  D128.lhsIdx_val_of_single rfl i q
theorem rhs128_0 (i : S50000x128.Idx) (q : D128.contr.Idx) : (D128.rhsIdx i q 0).val = (q ⟨0, by decide⟩).val :=
  D128.rhsIdx_val_of_single rfl i q
theorem rhs128_1 (i : S50000x128.Idx) (q : D128.contr.Idx) : (D128.rhsIdx i q 1).val = (i 1).val := by
  unfold DotDims.rhsIdx
  rw [dif_neg (show ¬(1 : Fin S128x128.rank) ∈ D128.rhsBatch by decide), dif_pos (show (1 : Fin S128x128.rank) ∈ D128.rhsNonContracting by decide)]
  rfl

/-- The product with a 128 × 128 matrix is the plain sum. -/
theorem lin128_eq (h : FVec Ideal S50000x128 .f32) (w : FVec Ideal S128x128 .f32) : lin128 (F := Ideal) h w = prod 128 h w := by
  funext i
  unfold lin128
  simp only [Host.dotGeneral]
  rw [Ideal.dotGeneral_apply, prod_apply, ← Equiv.sum_comp (contrEquiv1 D128 128 rfl rfl).symm]
  refine Finset.sum_congr rfl fun k _ => ?_
  have hk := contrEquiv1_symm_val D128 128 rfl rfl k
  have el : D128.lhsIdx i ((contrEquiv1 D128 128 rfl rfl).symm k) = ix2 (⟨(i 0).val, idx2_lt0 i⟩ : Fin 50000) k := funext fun a => Fin.ext (by
    match a with
    | ⟨0, _⟩ => exact lhs128_0 _ _
    | ⟨1, _⟩ => exact (lhs128_1 _ _).trans hk)
  have er : D128.rhsIdx i ((contrEquiv1 D128 128 rfl rfl).symm k) = ix2 k (⟨(i 1).val, idx2_lt1 i⟩ : Fin 128) := funext fun a => Fin.ext (by
    match a with
    | ⟨0, _⟩ => exact (rhs128_0 _ _).trans hk
    | ⟨1, _⟩ => exact rhs128_1 _ _)
  rw [el, er]

theorem lhs40_0 (i : S50000x40.Idx) (q : D40.contr.Idx) : (D40.lhsIdx i q 0).val = (i 0).val := by
  unfold DotDims.lhsIdx
  rw [dif_neg (show ¬(0 : Fin S50000x128.rank) ∈ D40.lhsBatch by decide), dif_pos (show (0 : Fin S50000x128.rank) ∈ D40.lhsNonContracting by decide)]
  rfl
theorem lhs40_1 (i : S50000x40.Idx) (q : D40.contr.Idx) : (D40.lhsIdx i q 1).val = (q ⟨0, by decide⟩).val :=
  D40.lhsIdx_val_of_single rfl i q
theorem rhs40_0 (i : S50000x40.Idx) (q : D40.contr.Idx) : (D40.rhsIdx i q 0).val = (q ⟨0, by decide⟩).val :=
  D40.rhsIdx_val_of_single rfl i q
theorem rhs40_1 (i : S50000x40.Idx) (q : D40.contr.Idx) : (D40.rhsIdx i q 1).val = (i 1).val := by
  unfold DotDims.rhsIdx
  rw [dif_neg (show ¬(1 : Fin S128x40.rank) ∈ D40.rhsBatch by decide), dif_pos (show (1 : Fin S128x40.rank) ∈ D40.rhsNonContracting by decide)]
  rfl

/-- The product with the 128 × 40 matrix is the plain sum. -/
theorem lin40_eq (h : FVec Ideal S50000x128 .f32) (w : FVec Ideal S128x40 .f32) : lin40 (F := Ideal) h w = prod 40 h w := by
  funext i
  unfold lin40
  simp only [Host.dotGeneral]
  rw [Ideal.dotGeneral_apply, prod_apply, ← Equiv.sum_comp (contrEquiv1 D40 128 rfl rfl).symm]
  refine Finset.sum_congr rfl fun k _ => ?_
  have hk := contrEquiv1_symm_val D40 128 rfl rfl k
  have el : D40.lhsIdx i ((contrEquiv1 D40 128 rfl rfl).symm k) = ix2 (⟨(i 0).val, idx2_lt0 i⟩ : Fin 50000) k := funext fun a => Fin.ext (by
    match a with
    | ⟨0, _⟩ => exact lhs40_0 _ _
    | ⟨1, _⟩ => exact (lhs40_1 _ _).trans hk)
  have er : D40.rhsIdx i ((contrEquiv1 D40 128 rfl rfl).symm k) = ix2 k (⟨(i 1).val, idx2_lt1 i⟩ : Fin 40) := funext fun a => Fin.ext (by
    match a with
    | ⟨0, _⟩ => exact (rhs40_0 _ _).trans hk
    | ⟨1, _⟩ => exact rhs40_1 _ _)
  rw [el, er]

end Cert.GraphConv

end
-- ==== Proof.Block0.lean ====
/-
  What the first tiled product leaves in its output array.

  The grid has ten points; point `t` loads rows `5000 t … 5000 t + 4999` of the left array and the whole 128 × 128 weight
  array, multiplies them (the conversion of both operands to bf16 is the identity on the extended reals, and the accumulator
  starts at zero), and writes the 5000 × 128 result back as rows `5000 t … 5000 t + 4999` of the output. Entry (r, f) of a
  block's product is `∑ k < 128, left(5000 t + r, k) · w(k, f)`, which is entry `(5000 t + r, f)` of the whole product; the ten row
  blocks cover the output (row `r` lies in block `r / 5000`), so the output array ends holding the whole product
  `MatProduct.prod` of the two arrays as the region finds them — whatever those contents are.
-/
import proofs.«178425_j31207232372931_1_alg».proof.Proof.Gen.KernelIdeal.Frame
import proofs.«178425_j31207232372931_1_alg».proof.Proof.Product
import Idealize.ShloMosaic.Lib.Pipeline.Value
import Idealize.ShloMosaic.Lib.ValueIdx
import Idealize.ShloMosaic.PureOps.Ideal.Laws

set_option maxRecDepth 16384

noncomputable section

namespace Cert.KernelIdeal.Block0

open Cert.KernelIdeal Cert.KernelIdeal.Gen Cert.MatProduct
open Idealize.ShloMosaic Idealize.ShloMosaic.TcCoe Idealize.ShloMosaic.ValueIdx Idealize.SL.Sem
open Idealize.ShloMosaic.Pipeline (Dat)

/-- The block product's dimension record: rows × contraction times contraction × columns. -/
abbrev D := dot_S5000x128_S128x128_S5000x128_1_0_0_1_n_n

theorem lhs_0 (j : S5000x128.Idx) (q : D.contr.Idx) : (D.lhsIdx j q 0).val = (j 0).val := by
  unfold DotDims.lhsIdx
  rw [dif_neg (show ¬(0 : Fin S5000x128.rank) ∈ D.lhsBatch by decide), dif_pos (show (0 : Fin S5000x128.rank) ∈ D.lhsNonContracting by decide)]
  rfl
theorem lhs_1 (j : S5000x128.Idx) (q : D.contr.Idx) : (D.lhsIdx j q 1).val = (q ⟨0, by decide⟩).val :=
  D.lhsIdx_val_of_single rfl j q
theorem rhs_0 (j : S5000x128.Idx) (q : D.contr.Idx) : (D.rhsIdx j q 0).val = (q ⟨0, by decide⟩).val :=
  D.rhsIdx_val_of_single rfl j q
theorem rhs_1 (j : S5000x128.Idx) (q : D.contr.Idx) : (D.rhsIdx j q 1).val = (j 1).val := by
  unfold DotDims.rhsIdx
  rw [dif_neg (show ¬(1 : Fin S128x128.rank) ∈ D.rhsBatch by decide), dif_pos (show (1 : Fin S128x128.rank) ∈ D.rhsNonContracting by decide)]
  rfl

/-- The body's arithmetic at an entry: the sum over the contracted axis of left(r, k) · w(k, f). -/
theorem pay_apply (x0 : Vec Ideal S5000x128 .f32) (x1 : Vec Ideal S128x128 .f32) (j : S5000x128.Idx) :
    k0_pay1 (F := Ideal) x0 x1 j
      = ∑ k : Fin 128, x0 (ix2 (⟨(j 0).val, idx2_lt0 j⟩ : Fin 5000) k) * x1 (ix2 k (⟨(j 1).val, idx2_lt1 j⟩ : Fin 128)) := by
  unfold k0_pay1
  dsimp only
  refine (Ideal.matmul_constant_zero_apply D none _ _ j).trans ?_
  rw [← Equiv.sum_comp (contrEquiv1 D 128 rfl rfl).symm]
  refine Finset.sum_congr rfl fun k _ => ?_
  have hk := contrEquiv1_symm_val D 128 rfl rfl k
  have el : D.lhsIdx j ((contrEquiv1 D 128 rfl rfl).symm k) = ix2 (⟨(j 0).val, idx2_lt0 j⟩ : Fin 5000) k := funext fun a => Fin.ext (by
    match a with
    | ⟨0, _⟩ => exact lhs_0 _ _
    | ⟨1, _⟩ => exact (lhs_1 _ _).trans hk)
  have er : D.rhsIdx j ((contrEquiv1 D 128 rfl rfl).symm k) = ix2 k (⟨(j 1).val, idx2_lt1 j⟩ : Fin 128) := funext fun a => Fin.ext (by
    match a with
    | ⟨0, _⟩ => exact (rhs_0 _ _).trans hk
    | ⟨1, _⟩ => exact rhs_1 _ _)
  show x0 (D.lhsIdx j ((contrEquiv1 D 128 rfl rfl).symm k)) * x1 (D.rhsIdx j ((contrEquiv1 D 128 rfl rfl).symm k)) = _
  rw [el, er]

theorem hz : (![0, 0] : Fin 2 → Nat) = fun _ => 0 := funext fun a => by fin_cases a <;> rfl

/-- The printed index maps over the grid: the left and output windows move down one block of rows per point and stay at
    column block 0; the weight window stays at block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- Point `t`'s left block at (r, k) is the left array at (5000 t + r, k): the same row of the whole array that the output's
    block names, at the contracted position. -/
theorem left_read (c : Dev nD) (t : Fin cfg0.N) (j : S5000x128.Idx) (k : Fin 128) :
    iblk0 V c 0 t (ix2 (⟨(j 0).val, idx2_lt0 j⟩ : Fin 5000) k)
      = V c main_arg0 (ix2 (⟨((((cfg0.win 2).blk t).view.emb j) 0).val, idx2_lt0 _⟩ : Fin 50000) k) := by
  obtain ⟨e0, e1, e2, e3, e4, e5⟩ := idx_facts t
  show V c main_arg0 (((cfg0.win 0).blk t).view.emb (ix2 (⟨(j 0).val, idx2_lt0 j⟩ : Fin 5000) k)) = _
  refine congrArg (V c main_arg0) (funext fun a => Fin.ext ?_)
  match a with
  | ⟨0, _⟩ =>
    show win0_0.index t (0 : Fin 2) * 5000 + 1 * (j 0).val = win0_2.index t (0 : Fin 2) * 5000 + 1 * (j 0).val
    omega
  | ⟨1, _⟩ =>
    show win0_0.index t (1 : Fin 2) * 128 + 1 * k.val = k.val
    omega

/-- Point `t`'s weight block is the whole weight array. -/
theorem weight_read (c : Dev nD) (t : Fin cfg0.N) (j : S5000x128.Idx) (k : Fin 128) :
    iblk0 V c 1 t (ix2 k (⟨(j 1).val, idx2_lt1 j⟩ : Fin 128))
      = V c main_arg2 (ix2 k (⟨((((cfg0.win 2).blk t).view.emb j) 1).val, idx2_lt1 _⟩ : Fin 128)) := by
  obtain ⟨e0, e1, e2, e3, e4, e5⟩ := idx_facts t
  show V c main_arg2 (((cfg0.win 1).blk t).view.emb (ix2 k (⟨(j 1).val, idx2_lt1 j⟩ : Fin 128))) = _
  refine congrArg (V c main_arg2) (funext fun a => Fin.ext ?_)
  match a with
  | ⟨0, _⟩ =>
    show win0_1.index t (0 : Fin 2) * 128 + 1 * k.val = k.val
    omega
  | ⟨1, _⟩ =>
    show win0_1.index t (1 : Fin 2) * 128 + 1 * (j 1).val = win0_2.index t (1 : Fin 2) * 128 + 1 * (j 1).val
    omega

/-- What point `t` writes back is block `t` of the whole product of the arrays as the region finds them. -/
theorem flushed_eq (c : Dev nD) (t : Fin cfg0.N) :
    (dat0 V c).flushed 2 t
      = ((cfg0.win 2).blk t).view.read (Elt Ideal) (prod 128 (V c main_arg0) (V c main_arg2)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  funext j
  refine (pay_apply (iblk0 V c 0 t) (iblk0 V c 1 t) j).trans ?_
  show _ = prod 128 (V c main_arg0) (V c main_arg2) (((cfg0.win 2).blk t).view.emb j)
  rw [prod_apply]
  refine Finset.sum_congr rfl fun k _ => ?_
  rw [left_read V c t j k, weight_read V c t j k]

/-- An index of the output array is in point `t`'s block iff each coordinate is in the block's range on its axis. -/
theorem mem_blk (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v31).slice (win0_2.rect t)).set ↔ _
  rw [View.set_slice_whole, Rect.mem_set_unit]
  exact Iff.rfl

/-- The ten row blocks cover the output: row `r` is in block `r / 5000`. -/
theorem cover (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  have hN : grid0.N = 10 := N_0
  let t : Fin cfg0.N := ⟨(i 0).val / 5000, by show (i 0).val / 5000 < grid0.N; omega⟩
  obtain ⟨e0, e1, e2, e3, e4, e5⟩ := idx_facts t
  have ht : t.val = (i 0).val / 5000 := rfl
  refine ⟨t, flush0_2 t, ?_⟩
  rw [mem_blk]
  intro a
  match a with
  | ⟨0, _⟩ =>
    show win0_2.index t (0 : Fin 2) * 5000 ≤ (i 0).val ∧ (i 0).val < win0_2.index t (0 : Fin 2) * 5000 + 5000
    omega
  | ⟨1, _⟩ =>
    show win0_2.index t (1 : Fin 2) * 128 ≤ (i 1).val ∧ (i 1).val < win0_2.index t (1 : Fin 2) * 128 + 128
    omega

/-- The output array after the region: the whole product of the two operand arrays as the region finds them. -/
theorem final (c : Dev nD) :
    (dat0 V c).arrAt 2 cfg0.N = prod 128 (V c main_arg0) (V c main_arg2) :=
  (dat0 V c).arrAt_eq_of_cover 2 (prod 128 (V c main_arg0) (V c main_arg2)) (fun t _ => flushed_eq V c t) cover

end Cert.KernelIdeal.Block0

end
-- ==== Proof.Block1.lean ====
/-
  What the second tiled product leaves in its output array.

  The grid has ten points; point `t` loads rows `5000 t … 5000 t + 4999` of the left array and the whole 128 × 128 weight
  array, multiplies them (the conversion of both operands to bf16 is the identity on the extended reals, and the accumulator
  starts at zero), and writes the 5000 × 128 result back as rows `5000 t … 5000 t + 4999` of the output. Entry (r, f) of a
  block's product is `∑ k < 128, left(5000 t + r, k) · w(k, f)`, which is entry `(5000 t + r, f)` of the whole product; the ten row
  blocks cover the output (row `r` lies in block `r / 5000`), so the output array ends holding the whole product
  `MatProduct.prod` of the two arrays as the region finds them — whatever those contents are.
-/
import proofs.«178425_j31207232372931_1_alg».proof.Proof.Gen.KernelIdeal.Frame
import proofs.«178425_j31207232372931_1_alg».proof.Proof.Product
import Idealize.ShloMosaic.Lib.Pipeline.Value
import Idealize.ShloMosaic.Lib.ValueIdx
import Idealize.ShloMosaic.PureOps.Ideal.Laws

set_option maxRecDepth 16384

noncomputable section

namespace Cert.KernelIdeal.Block1

open Cert.KernelIdeal Cert.KernelIdeal.Gen Cert.MatProduct
open Idealize.ShloMosaic Idealize.ShloMosaic.TcCoe Idealize.ShloMosaic.ValueIdx Idealize.SL.Sem
open Idealize.ShloMosaic.Pipeline (Dat)

/-- The block product's dimension record: rows × contraction times contraction × columns. -/
abbrev D := dot_S5000x128_S128x128_S5000x128_1_0_0_1_n_n

theorem lhs_0 (j : S5000x128.Idx) (q : D.contr.Idx) : (D.lhsIdx j q 0).val = (j 0).val := by
  unfold DotDims.lhsIdx
  rw [dif_neg (show ¬(0 : Fin S5000x128.rank) ∈ D.lhsBatch by decide), dif_pos (show (0 : Fin S5000x128.rank) ∈ D.lhsNonContracting by decide)]
  rfl
theorem lhs_1 (j : S5000x128.Idx) (q : D.contr.Idx) : (D.lhsIdx j q 1).val = (q ⟨0, by decide⟩).val :=
  D.lhsIdx_val_of_single rfl j q
theorem rhs_0 (j : S5000x128.Idx) (q : D.contr.Idx) : (D.rhsIdx j q 0).val = (q ⟨0, by decide⟩).val :=
  D.rhsIdx_val_of_single rfl j q
theorem rhs_1 (j : S5000x128.Idx) (q : D.contr.Idx) : (D.rhsIdx j q 1).val = (j 1).val := by
  unfold DotDims.rhsIdx
  rw [dif_neg (show ¬(1 : Fin S128x128.rank) ∈ D.rhsBatch by decide), dif_pos (show (1 : Fin S128x128.rank) ∈ D.rhsNonContracting by decide)]
  rfl

/-- The body's arithmetic at an entry: the sum over the contracted axis of left(r, k) · w(k, f). -/
theorem pay_apply (x0 : Vec Ideal S5000x128 .f32) (x1 : Vec Ideal S128x128 .f32) (j : S5000x128.Idx) :
    k1_pay1 (F := Ideal) x0 x1 j
      = ∑ k : Fin 128, x0 (ix2 (⟨(j 0).val, idx2_lt0 j⟩ : Fin 5000) k) * x1 (ix2 k (⟨(j 1).val, idx2_lt1 j⟩ : Fin 128)) := by
  unfold k1_pay1
  dsimp only
  rw [shapeCast_self]
  refine (Ideal.matmul_constant_zero_apply D none _ _ j).trans ?_
  rw [← Equiv.sum_comp (contrEquiv1 D 128 rfl rfl).symm]
  refine Finset.sum_congr rfl fun k _ => ?_
  have hk := contrEquiv1_symm_val D 128 rfl rfl k
  have el : D.lhsIdx j ((contrEquiv1 D 128 rfl rfl).symm k) = ix2 (⟨(j 0).val, idx2_lt0 j⟩ : Fin 5000) k := funext fun a => Fin.ext (by
    match a with
    | ⟨0, _⟩ => exact lhs_0 _ _
    | ⟨1, _⟩ => exact (lhs_1 _ _).trans hk)
  have er : D.rhsIdx j ((contrEquiv1 D 128 rfl rfl).symm k) = ix2 k (⟨(j 1).val, idx2_lt1 j⟩ : Fin 128) := funext fun a => Fin.ext (by
    match a with
    | ⟨0, _⟩ => exact (rhs_0 _ _).trans hk
    | ⟨1, _⟩ => exact rhs_1 _ _)
  show x0 (D.lhsIdx j ((contrEquiv1 D 128 rfl rfl).symm k)) * x1 (D.rhsIdx j ((contrEquiv1 D 128 rfl rfl).symm k)) = _
  rw [el, er]

theorem hz : (![0, 0] : Fin 2 → Nat) = fun _ => 0 := funext fun a => by fin_cases a <;> rfl

/-- The printed index maps over the grid: the left and output windows move down one block of rows per point and stay at
    column block 0; the weight window stays at block (0, 0). -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

variable (V : (c : Dev nD) → (b : Ref sig .tc) → Buf (Elt Ideal) ((c : Thread nD τ).loc b))

/-- Point `t`'s left block at (r, k) is the left array at (5000 t + r, k): the same row of the whole array that the output's
    block names, at the contracted position. -/
theorem left_read (c : Dev nD) (t : Fin cfg1.N) (j : S5000x128.Idx) (k : Fin 128) :
    iblk1 V c 0 t (ix2 (⟨(j 0).val, idx2_lt0 j⟩ : Fin 5000) k)
      = V c main_v48 (ix2 (⟨((((cfg1.win 2).blk t).view.emb j) 0).val, idx2_lt0 _⟩ : Fin 50000) k) := by
  obtain ⟨e0, e1, e2, e3, e4, e5⟩ := idx_facts t
  show V c main_v48 (((cfg1.win 0).blk t).view.emb (ix2 (⟨(j 0).val, idx2_lt0 j⟩ : Fin 5000) k)) = _
  refine congrArg (V c main_v48) (funext fun a => Fin.ext ?_)
  match a with
  | ⟨0, _⟩ =>
    show win1_0.index t (0 : Fin 2) * 5000 + 1 * (j 0).val = win1_2.index t (0 : Fin 2) * 5000 + 1 * (j 0).val
    omega
  | ⟨1, _⟩ =>
    show win1_0.index t (1 : Fin 2) * 128 + 1 * k.val = k.val
    omega

/-- Point `t`'s weight block is the whole weight array. -/
theorem weight_read (c : Dev nD) (t : Fin cfg1.N) (j : S5000x128.Idx) (k : Fin 128) :
    iblk1 V c 1 t (ix2 k (⟨(j 1).val, idx2_lt1 j⟩ : Fin 128))
      = V c main_arg4 (ix2 k (⟨((((cfg1.win 2).blk t).view.emb j) 1).val, idx2_lt1 _⟩ : Fin 128)) := by
  obtain ⟨e0, e1, e2, e3, e4, e5⟩ := idx_facts t
  show V c main_arg4 (((cfg1.win 1).blk t).view.emb (ix2 k (⟨(j 1).val, idx2_lt1 j⟩ : Fin 128))) = _
  refine congrArg (V c main_arg4) (funext fun a => Fin.ext ?_)
  match a with
  | ⟨0, _⟩ =>
    show win1_1.index t (0 : Fin 2) * 128 + 1 * k.val = k.val
    omega
  | ⟨1, _⟩ =>
    show win1_1.index t (1 : Fin 2) * 128 + 1 * (j 1).val = win1_2.index t (1 : Fin 2) * 128 + 1 * (j 1).val
    omega

/-- What point `t` writes back is block `t` of the whole product of the arrays as the region finds them. -/
theorem flushed_eq (c : Dev nD) (t : Fin cfg1.N) :
    (dat1 V c).flushed 2 t
      = ((cfg1.win 2).blk t).view.read (Elt Ideal) (prod 128 (V c main_v48) (V c main_arg4)) := by
  show (cfg1.win 2).cut (grid1.coords t) ((dat1 V c).after 2 t) = _
  rw [after1_2]
  unfold out1_2
  rw [View.canon_unit_zero hz]
  simp only [View.ld_unit_zero (S := S5000x128) hz, View.ld_unit_zero (S := S128x128) hz]
  funext j
  refine (pay_apply (iblk1 V c 0 t) (iblk1 V c 1 t) j).trans ?_
  show _ = prod 128 (V c main_v48) (V c main_arg4) (((cfg1.win 2).blk t).view.emb j)
  rw [prod_apply]
  refine Finset.sum_congr rfl fun k _ => ?_
  rw [left_read V c t j k, weight_read V c t j k]

/-- An index of the output array is in point `t`'s block iff each coordinate is in the block's range on its axis. -/
theorem mem_blk (t : Fin cfg1.N) (i : S50000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v49).slice (win1_2.rect t)).set ↔ _
  rw [View.set_slice_whole, Rect.mem_set_unit]
  exact Iff.rfl

/-- The ten row blocks cover the output: row `r` is in block `r / 5000`. -/
theorem cover (i : S50000x128.Idx) : ∃ t : Fin cfg1.N, (cfg1.win 2).flush t = true ∧ i ∈ ((cfg1.win 2).blk t).view.set := by
  have hi0 : (i 0).val < 50000 := (i 0).isLt
  have hi1 : (i 1).val < 128 := (i 1).isLt
  have hN : grid1.N = 10 := N_1
  let t : Fin cfg1.N := ⟨(i 0).val / 5000, by show (i 0).val / 5000 < grid1.N; omega⟩
  obtain ⟨e0, e1, e2, e3, e4, e5⟩ := idx_facts t
  have ht : t.val = (i 0).val / 5000 := rfl
  refine ⟨t, flush1_2 t, ?_⟩
  rw [mem_blk]
  intro a
  match a with
  | ⟨0, _⟩ =>
    show win1_2.index t (0 : Fin 2) * 5000 ≤ (i 0).val ∧ (i 0).val < win1_2.index t (0 : Fin 2) * 5000 + 5000
    omega
  | ⟨1, _⟩ =>
    show win1_2.index t (1 : Fin 2) * 128 ≤ (i 1).val ∧ (i 1).val < win1_2.index t (1 : Fin 2) * 128 + 128
    omega

/-- The output array after the region: the whole product of the two operand arrays as the region finds them. -/
theorem final (c : Dev nD) :
    (dat1 V c).arrAt 2 cfg1.N = prod 128 (V c main_v48) (V c main_arg4) :=
  (dat1 V c).arrAt_eq_of_cover 2 (prod 128 (V c main_v48) (V c main_arg4)) (fun t _ => flushed_eq V c t) cover

end Cert.KernelIdeal.Block1

end
-- ==== Proof.Block2.lean ====
/-
  What the third tiled product leaves in its output array.

  The grid has ten points; point `t` loads rows `5000 t … 5000 t + 4999` of the left array and the whole 128 × 40 weight
  array, multiplies them (the conversion of both operands to bf16 is the identity on the extended reals, and the accumulator
  starts at zero), and writes the 5000 × 40 result back as rows `5000 t … 5000 t + 4999` of the output. Entry (r, f) of a
  block's product is `∑ k < 128, left(5000 t + r, k) · w(k, f)`, which is entry `(5000 t + r, f)` of the whole product; the ten row
  blocks cover the output (row `r` lies in block `r / 5000`), so the output array ends holding the whole product
  `MatProduct.prod` of the two arrays as the region finds them — whatever those contents are.
-/
import proofs.«178425_j31207232372931_1_alg».proof.Proof.Gen.KernelIdeal.Frame
import proofs.«178425_j31207232372931_1_alg».proof.Proof.Product
import Idealize.ShloMosaic.Lib.Pipeline.Value
import Idealize.ShloMosaic.Lib.ValueIdx
import Idealize.ShloMosaic.PureOps.Ideal.Laws

set_option maxRecDepth 16384

noncomputable section

namespace Cert.KernelIdeal.Block2

open Cert.KernelIdeal Cert.KernelIdeal.Gen Cert.MatProduct
open Idealize.ShloMosaic Idealize.ShloMosaic.TcCoe Idealize.ShloMosaic.ValueIdx Idealize.SL.Sem
open Idealize.ShloMosaic.Pipeline (Dat)

/-- The block product's dimension record: rows × contraction times contraction × columns. -/
abbrev D := dot_S5000x128_S128x40_S5000x40_1_0_0_1_n_n

theorem lhs_0 (j : S5000x40.Idx) (q : D.contr.Idx) : (D.lhsIdx j q 0).val = (j 0).val := by
  unfold DotDims.lhsIdx
  rw [dif_neg (show ¬(0 : Fin S5000x128.rank) ∈ D.lhsBatch by decide), dif_pos (show (0 : Fin S5000x128.rank) ∈ D.lhsNonContracting by decide)]
  rfl
theorem lhs_1 (j : S5000x40.Idx) (q : D.contr.Idx) : (D.lhsIdx j q 1).val = (q ⟨0, by decide⟩).val :=
  D.lhsIdx_val_of_single rfl j q
theorem rhs_0 (j : S5000x40.Idx) (q : D.contr.Idx) : (D.rhsIdx j q 0).val = (q ⟨0, by decide⟩).val :=
  D.rhsIdx_val_of_single rfl j q
theorem rhs_1 (j : S5000x40.Idx) (q : D.contr.Idx) : (D.rhsIdx j q 1).val = (j 1).val := by
  unfold DotDims.rhsIdx
  rw [dif_neg (show ¬(1 : Fin S128x40.rank) ∈ D.rhsBatch by decide), dif_pos (show (1 : Fin S128x40.rank) ∈ D.rhsNonContracting by decide)]
  rfl

/-- The body's arithmetic at an entry: the sum over the contracted axis of left(r, k) · w(k, f). -/
theorem pay_apply (x0 : Vec Ideal S5000x128 .f32) (x1 : Vec Ideal S128x40 .f32) (j : S5000x40.Idx) :
    k2_pay1 (F := Ideal) x0 x1 j
      = ∑ k : Fin 128, x0 (ix2 (⟨(j 0).val, idx2_lt0 j⟩ : Fin 5000) k) * x1 (ix2 k (⟨(j 1).val, idx2_lt1 j⟩ : Fin 40)) := by
  unfold k2_pay1
  dsimp only
  rw [shapeCast_self]
  refine (Ideal.matmul_constant_zero_apply D none _ _ j).trans ?_
  rw [← Equiv.sum_comp (contrEquiv1 D 128 rfl rfl).symm]
  refine Finset.sum_congr rfl fun k _ => ?_
  have hk := contrEquiv1_symm_val D 128 rfl rfl k
  have el : D.lhsIdx j ((contrEquiv1 D 128 rfl rfl).symm k) = ix2 (⟨(j 0).val, idx2_lt0 j⟩ : Fin 5000) k := funext fun a => Fin.ext (by
    match a with
    | ⟨0, _⟩ => exact lhs_0 _ _
    | ⟨1, _⟩ => exact (lhs_1 _ _).trans hk)
  have er : D.rhsIdx j ((contrEquiv1 D 128 rfl rfl).symm k) = ix2 k (⟨(j 1).val, idx2_lt1 j⟩ : Fin 40) := funext fun a => Fin.ext (by
    match a with
    | ⟨0, _⟩ => exact (rhs_0 _ _).trans hk
    | ⟨1, _⟩ => exact rhs_1 _ _)
  show x0 (D.lhsIdx j ((contrEquiv1 D 128 rfl rfl).symm k)) * x1 (D.rhsIdx j ((contrEquiv1 D 128 rfl rfl).symm k)) = _
  rw [el, er]

theorem hz : (![0, 0] : Fin 2 → Nat) = fun _ => 0 := funext fun a => by fin_cases a <;> rfl

/-- The printed index maps over the grid: the left and output windows move down one block of rows per point and stay at
    column block 0; the weight window stays at block (0, 0). -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

variable (V : (c : Dev nD) → (b : Ref sig .tc) → Buf (Elt Ideal) ((c : Thread nD τ).loc b))

/-- Point `t`'s left block at (r, k) is the left array at (5000 t + r, k): the same row of the whole array that the output's
    block names, at the contracted position. -/
theorem left_read (c : Dev nD) (t : Fin cfg2.N) (j : S5000x40.Idx) (k : Fin 128) :
    iblk2 V c 0 t (ix2 (⟨(j 0).val, idx2_lt0 j⟩ : Fin 5000) k)
      = V c main_v66 (ix2 (⟨((((cfg2.win 2).blk t).view.emb j) 0).val, idx2_lt0 _⟩ : Fin 50000) k) := by
  obtain ⟨e0, e1, e2, e3, e4, e5⟩ := idx_facts t
  show V c main_v66 (((cfg2.win 0).blk t).view.emb (ix2 (⟨(j 0).val, idx2_lt0 j⟩ : Fin 5000) k)) = _
  refine congrArg (V c main_v66) (funext fun a => Fin.ext ?_)
  match a with
  | ⟨0, _⟩ =>
    show win2_0.index t (0 : Fin 2) * 5000 + 1 * (j 0).val = win2_2.index t (0 : Fin 2) * 5000 + 1 * (j 0).val
    omega
  | ⟨1, _⟩ =>
    show win2_0.index t (1 : Fin 2) * 128 + 1 * k.val = k.val
    omega

/-- Point `t`'s weight block is the whole weight array. -/
theorem weight_read (c : Dev nD) (t : Fin cfg2.N) (j : S5000x40.Idx) (k : Fin 128) :
    iblk2 V c 1 t (ix2 k (⟨(j 1).val, idx2_lt1 j⟩ : Fin 40))
      = V c main_arg6 (ix2 k (⟨((((cfg2.win 2).blk t).view.emb j) 1).val, idx2_lt1 _⟩ : Fin 40)) := by
  obtain ⟨e0, e1, e2, e3, e4, e5⟩ := idx_facts t
  show V c main_arg6 (((cfg2.win 1).blk t).view.emb (ix2 k (⟨(j 1).val, idx2_lt1 j⟩ : Fin 40))) = _
  refine congrArg (V c main_arg6) (funext fun a => Fin.ext ?_)
  match a with
  | ⟨0, _⟩ =>
    show win2_1.index t (0 : Fin 2) * 128 + 1 * k.val = k.val
    omega
  | ⟨1, _⟩ =>
    show win2_1.index t (1 : Fin 2) * 40 + 1 * (j 1).val = win2_2.index t (1 : Fin 2) * 40 + 1 * (j 1).val
    omega

/-- What point `t` writes back is block `t` of the whole product of the arrays as the region finds them. -/
theorem flushed_eq (c : Dev nD) (t : Fin cfg2.N) :
    (dat2 V c).flushed 2 t
      = ((cfg2.win 2).blk t).view.read (Elt Ideal) (prod 40 (V c main_v66) (V c main_arg6)) := by
  show (cfg2.win 2).cut (grid2.coords t) ((dat2 V c).after 2 t) = _
  rw [after2_2]
  unfold out2_2
  rw [View.canon_unit_zero hz]
  simp only [View.ld_unit_zero (S := S5000x128) hz, View.ld_unit_zero (S := S128x40) hz]
  funext j
  refine (pay_apply (iblk2 V c 0 t) (iblk2 V c 1 t) j).trans ?_
  show _ = prod 40 (V c main_v66) (V c main_arg6) (((cfg2.win 2).blk t).view.emb j)
  rw [prod_apply]
  refine Finset.sum_congr rfl fun k _ => ?_
  rw [left_read V c t j k, weight_read V c t j k]

/-- An index of the output array is in point `t`'s block iff each coordinate is in the block's range on its axis. -/
theorem mem_blk (t : Fin cfg2.N) (i : S50000x40.Idx) :
    i ∈ ((cfg2.win 2).blk t).view.set ↔ ∀ a : Fin 2, win2_2.index t a * S5000x40.size a ≤ (i a).val ∧ (i a).val < win2_2.index t a * S5000x40.size a + S5000x40.size a := by
  show i ∈ ((View.whole main_v67).slice (win2_2.rect t)).set ↔ _
  rw [View.set_slice_whole, Rect.mem_set_unit]
  exact Iff.rfl

/-- The ten row blocks cover the output: row `r` is in block `r / 5000`. -/
theorem cover (i : S50000x40.Idx) : ∃ t : Fin cfg2.N, (cfg2.win 2).flush t = true ∧ i ∈ ((cfg2.win 2).blk t).view.set := by
  have hi0 : (i 0).val < 50000 := (i 0).isLt
  have hi1 : (i 1).val < 40 := (i 1).isLt
  have hN : grid2.N = 10 := N_2
  let t : Fin cfg2.N := ⟨(i 0).val / 5000, by show (i 0).val / 5000 < grid2.N; omega⟩
  obtain ⟨e0, e1, e2, e3, e4, e5⟩ := idx_facts t
  have ht : t.val = (i 0).val / 5000 := rfl
  refine ⟨t, flush2_2 t, ?_⟩
  rw [mem_blk]
  intro a
  match a with
  | ⟨0, _⟩ =>
    show win2_2.index t (0 : Fin 2) * 5000 ≤ (i 0).val ∧ (i 0).val < win2_2.index t (0 : Fin 2) * 5000 + 5000
    omega
  | ⟨1, _⟩ =>
    show win2_2.index t (1 : Fin 2) * 40 ≤ (i 1).val ∧ (i 1).val < win2_2.index t (1 : Fin 2) * 40 + 40
    omega

/-- The output array after the region: the whole product of the two operand arrays as the region finds them. -/
theorem final (c : Dev nD) :
    (dat2 V c).arrAt 2 cfg2.N = prod 40 (V c main_v66) (V c main_arg6) :=
  (dat2 V c).arrAt_eq_of_cover 2 (prod 40 (V c main_v66) (V c main_arg6)) (fun t _ => flushed_eq V c t) cover

end Cert.KernelIdeal.Block2

end
-- ==== Proof.HostPrologue.lean ====
/-
  The host operations before the first product: the edge lists and the edge weights.

  From any buffer contents `Wb` whose edge array is `e`, the first three stretches of host operations leave the 850000 source
  nodes `GraphConv.src e`, the destination nodes `GraphConv.dst e` and the edge weights `GraphConv.norm e` in their buffers — the
  same operations, in the same order, as the definitions unfold to — and write none of the argument arrays.
-/
import proofs.«178425_j31207232372931_1_alg».proof.Proof.Gen.KernelIdeal.Launch
import proofs.«178425_j31207232372931_1_alg».proof.Proof.Spec
import Idealize.ShloMosaic.Lib.StableHlo.Run

set_option maxRecDepth 16384

noncomputable section

namespace Cert.KernelIdeal.HostGlue

open Cert.KernelIdeal Cert.KernelIdeal.Gen
open Idealize.ShloMosaic Idealize.ShloMosaic.TcCoe Idealize.SL.Sem Idealize.ShloMosaic.StableHlo

variable {F : FTy → Type} [FloatOps F]

/-- Reads left under a list of operands (a concatenation's pieces): each operation's result at its own buffer is its
    function's value, at any other buffer what was there before. -/
macro "finish_reads" : tactic =>
  `(tactic| repeat (first
      | rw [nullary_result] | rw [unary_result] | rw [binary_result] | rw [ternary_result] | rw [reshape_result]
      | (rw [nullary_result_ne]; rotate_left; decide)
      | (rw [unary_result_ne]; rotate_left; decide)
      | (rw [binary_result_ne]; rotate_left; decide)
      | (rw [ternary_result_ne]; rotate_left; decide)
      | (rw [reshape_result_ne]; rotate_left; decide)))

set_option maxHeartbeats 8000000 in
/-- The source-node list. -/
theorem pro_src (Wb : Valuation τ sig (Elt F)) (e : GraphConv.Edges F) (he : Wb (Proc.devRef .tc main_arg1) = e) :
    StableHlo.after hostOps0_2 (StableHlo.after hostOps0_1 (StableHlo.after hostOps0 Wb)) (Proc.devRef .tc main_v5) = GraphConv.src e := by
  subst he
  after_results_simp
  finish_reads
  rfl

set_option maxHeartbeats 8000000 in
/-- The destination-node list. -/
theorem pro_dst (Wb : Valuation τ sig (Elt F)) (e : GraphConv.Edges F) (he : Wb (Proc.devRef .tc main_arg1) = e) :
    StableHlo.after hostOps0_2 (StableHlo.after hostOps0_1 (StableHlo.after hostOps0 Wb)) (Proc.devRef .tc main_v6) = GraphConv.dst e := by
  subst he
  after_results_simp
  finish_reads
  rfl

set_option maxHeartbeats 8000000 in
/-- The edge weights `dis(s_e) · dis(d_e)`. -/
theorem pro_norm (Wb : Valuation τ sig (Elt F)) (e : GraphConv.Edges F) (he : Wb (Proc.devRef .tc main_arg1) = e) :
    StableHlo.after hostOps0_2 (StableHlo.after hostOps0_1 (StableHlo.after hostOps0 Wb)) (Proc.devRef .tc main_v30) = GraphConv.norm e := by
  subst he
  after_results_simp
  finish_reads
  rfl

/-! No operation of the three stretches writes an argument array. -/
set_option maxHeartbeats 8000000 in
theorem pro_keep_arg0 (Wb : Valuation τ sig (Elt F)) :
    StableHlo.after hostOps0_2 (StableHlo.after hostOps0_1 (StableHlo.after hostOps0 Wb)) (Proc.devRef .tc main_arg0) = Wb (Proc.devRef .tc main_arg0) := by
  after_results_simp

set_option maxHeartbeats 8000000 in
theorem pro_keep_arg2 (Wb : Valuation τ sig (Elt F)) :
    StableHlo.after hostOps0_2 (StableHlo.after hostOps0_1 (StableHlo.after hostOps0 Wb)) (Proc.devRef .tc main_arg2) = Wb (Proc.devRef .tc main_arg2) := by
  after_results_simp

set_option maxHeartbeats 8000000 in
theorem pro_keep_arg3 (Wb : Valuation τ sig (Elt F)) :
    StableHlo.after hostOps0_2 (StableHlo.after hostOps0_1 (StableHlo.after hostOps0 Wb)) (Proc.devRef .tc main_arg3) = Wb (Proc.devRef .tc main_arg3) := by
  after_results_simp

set_option maxHeartbeats 8000000 in
theorem pro_keep_arg4 (Wb : Valuation τ sig (Elt F)) :
    StableHlo.after hostOps0_2 (StableHlo.after hostOps0_1 (StableHlo.after hostOps0 Wb)) (Proc.devRef .tc main_arg4) = Wb (Proc.devRef .tc main_arg4) := by
  after_results_simp

set_option maxHeartbeats 8000000 in
theorem pro_keep_arg5 (Wb : Valuation τ sig (Elt F)) :
    StableHlo.after hostOps0_2 (StableHlo.after hostOps0_1 (StableHlo.after hostOps0 Wb)) (Proc.devRef .tc main_arg5) = Wb (Proc.devRef .tc main_arg5) := by
  after_results_simp

set_option maxHeartbeats 8000000 in
theorem pro_keep_arg6 (Wb : Valuation τ sig (Elt F)) :
    StableHlo.after hostOps0_2 (StableHlo.after hostOps0_1 (StableHlo.after hostOps0 Wb)) (Proc.devRef .tc main_arg6) = Wb (Proc.devRef .tc main_arg6) := by
  after_results_simp

set_option maxHeartbeats 8000000 in
theorem pro_keep_arg7 (Wb : Valuation τ sig (Elt F)) :
    StableHlo.after hostOps0_2 (StableHlo.after hostOps0_1 (StableHlo.after hostOps0 Wb)) (Proc.devRef .tc main_arg7) = Wb (Proc.devRef .tc main_arg7) := by
  after_results_simp

end Cert.KernelIdeal.HostGlue

end
-- ==== Proof.HostLayer1.lean ====
/-
  The host operations after the first product: the aggregation over the edges and the activation.

  From any buffer contents `Wb` whose product buffer holds `h`, whose edge-list and edge-weight buffers hold `src e`, `dst e`,
  `norm e`, and whose bias array is `b`, the stretch gathers the rows `h(s_e, ·)`, scales each by its edge's weight, adds them
  into row `d_e` of a zero array and adds the bias, then takes the maximum with zero: `relu (agg128 h e b)`. It writes neither the edge lists, the edge
  weights nor a later layer's arguments.
-/
import proofs.«178425_j31207232372931_1_alg».proof.Proof.Gen.KernelIdeal.Launch
import proofs.«178425_j31207232372931_1_alg».proof.Proof.Spec
import Idealize.ShloMosaic.Lib.StableHlo.Run

set_option maxRecDepth 16384

noncomputable section

namespace Cert.KernelIdeal.HostGlue

open Cert.KernelIdeal Cert.KernelIdeal.Gen
open Idealize.ShloMosaic Idealize.ShloMosaic.TcCoe Idealize.SL.Sem Idealize.ShloMosaic.StableHlo

variable {F : FTy → Type} [FloatOps F]

set_option maxHeartbeats 8000000 in
/-- The layer's value. -/
theorem layer1 (Wb : Valuation τ sig (Elt F)) (h : FVec F Cert.ReferenceIdeal.S50000x128 .f32) (e : GraphConv.Edges F) (b : FVec F Cert.ReferenceIdeal.S128 .f32)
    (hh : Wb (Proc.devRef .tc main_v31) = h) (hs : Wb (Proc.devRef .tc main_v5) = GraphConv.src e)
    (hd : Wb (Proc.devRef .tc main_v6) = GraphConv.dst e) (hn : Wb (Proc.devRef .tc main_v30) = GraphConv.norm e)
    (hb : Wb (Proc.devRef .tc main_arg3) = b) :
    StableHlo.after hostOps1_1 (StableHlo.after hostOps1 Wb) (Proc.devRef .tc main_v48) = GraphConv.relu (GraphConv.agg128 h e b) := by
  after_results_simp
  rw [hh, hs, hd, hn, hb]
  rfl

/-! What the stretch leaves untouched. -/
set_option maxHeartbeats 8000000 in
theorem keep1_v5 (Wb : Valuation τ sig (Elt F)) :
    StableHlo.after hostOps1_1 (StableHlo.after hostOps1 Wb) (Proc.devRef .tc main_v5) = Wb (Proc.devRef .tc main_v5) := by
  after_results_simp

set_option maxHeartbeats 8000000 in
theorem keep1_v6 (Wb : Valuation τ sig (Elt F)) :
    StableHlo.after hostOps1_1 (StableHlo.after hostOps1 Wb) (Proc.devRef .tc main_v6) = Wb (Proc.devRef .tc main_v6) := by
  after_results_simp

set_option maxHeartbeats 8000000 in
theorem keep1_v30 (Wb : Valuation τ sig (Elt F)) :
    StableHlo.after hostOps1_1 (StableHlo.after hostOps1 Wb) (Proc.devRef .tc main_v30) = Wb (Proc.devRef .tc main_v30) := by
  after_results_simp

set_option maxHeartbeats 8000000 in
theorem keep1_arg4 (Wb : Valuation τ sig (Elt F)) :
    StableHlo.after hostOps1_1 (StableHlo.after hostOps1 Wb) (Proc.devRef .tc main_arg4) = Wb (Proc.devRef .tc main_arg4) := by
  after_results_simp

set_option maxHeartbeats 8000000 in
theorem keep1_arg5 (Wb : Valuation τ sig (Elt F)) :
    StableHlo.after hostOps1_1 (StableHlo.after hostOps1 Wb) (Proc.devRef .tc main_arg5) = Wb (Proc.devRef .tc main_arg5) := by
  after_results_simp

set_option maxHeartbeats 8000000 in
theorem keep1_arg6 (Wb : Valuation τ sig (Elt F)) :
    StableHlo.after hostOps1_1 (StableHlo.after hostOps1 Wb) (Proc.devRef .tc main_arg6) = Wb (Proc.devRef .tc main_arg6) := by
  after_results_simp

set_option maxHeartbeats 8000000 in
theorem keep1_arg7 (Wb : Valuation τ sig (Elt F)) :
    StableHlo.after hostOps1_1 (StableHlo.after hostOps1 Wb) (Proc.devRef .tc main_arg7) = Wb (Proc.devRef .tc main_arg7) := by
  after_results_simp

end Cert.KernelIdeal.HostGlue

end
-- ==== Proof.HostLayer2.lean ====
/-
  The host operations after the second product: the aggregation over the edges and the activation.

  From any buffer contents `Wb` whose product buffer holds `h`, whose edge-list and edge-weight buffers hold `src e`, `dst e`,
  `norm e`, and whose bias array is `b`, the stretch gathers the rows `h(s_e, ·)`, scales each by its edge's weight, adds them
  into row `d_e` of a zero array and adds the bias, then takes the maximum with zero: `relu (agg128 h e b)`. It writes neither the edge lists, the edge
  weights nor a later layer's arguments.
-/
import proofs.«178425_j31207232372931_1_alg».proof.Proof.Gen.KernelIdeal.Launch
import proofs.«178425_j31207232372931_1_alg».proof.Proof.Spec
import Idealize.ShloMosaic.Lib.StableHlo.Run

set_option maxRecDepth 16384

noncomputable section

namespace Cert.KernelIdeal.HostGlue

open Cert.KernelIdeal Cert.KernelIdeal.Gen
open Idealize.ShloMosaic Idealize.ShloMosaic.TcCoe Idealize.SL.Sem Idealize.ShloMosaic.StableHlo

variable {F : FTy → Type} [FloatOps F]

set_option maxHeartbeats 8000000 in
/-- The layer's value. -/
theorem layer2 (Wb : Valuation τ sig (Elt F)) (h : FVec F Cert.ReferenceIdeal.S50000x128 .f32) (e : GraphConv.Edges F) (b : FVec F Cert.ReferenceIdeal.S128 .f32)
    (hh : Wb (Proc.devRef .tc main_v49) = h) (hs : Wb (Proc.devRef .tc main_v5) = GraphConv.src e)
    (hd : Wb (Proc.devRef .tc main_v6) = GraphConv.dst e) (hn : Wb (Proc.devRef .tc main_v30) = GraphConv.norm e)
    (hb : Wb (Proc.devRef .tc main_arg5) = b) :
    StableHlo.after hostOps2_1 (StableHlo.after hostOps2 Wb) (Proc.devRef .tc main_v66) = GraphConv.relu (GraphConv.agg128 h e b) := by
  after_results_simp
  rw [hh, hs, hd, hn, hb]
  rfl

/-! What the stretch leaves untouched. -/
set_option maxHeartbeats 8000000 in
theorem keep2_v5 (Wb : Valuation τ sig (Elt F)) :
    StableHlo.after hostOps2_1 (StableHlo.after hostOps2 Wb) (Proc.devRef .tc main_v5) = Wb (Proc.devRef .tc main_v5) := by
  after_results_simp

set_option maxHeartbeats 8000000 in
theorem keep2_v6 (Wb : Valuation τ sig (Elt F)) :
    StableHlo.after hostOps2_1 (StableHlo.after hostOps2 Wb) (Proc.devRef .tc main_v6) = Wb (Proc.devRef .tc main_v6) := by
  after_results_simp

set_option maxHeartbeats 8000000 in
theorem keep2_v30 (Wb : Valuation τ sig (Elt F)) :
    StableHlo.after hostOps2_1 (StableHlo.after hostOps2 Wb) (Proc.devRef .tc main_v30) = Wb (Proc.devRef .tc main_v30) := by
  after_results_simp

set_option maxHeartbeats 8000000 in
theorem keep2_arg6 (Wb : Valuation τ sig (Elt F)) :
    StableHlo.after hostOps2_1 (StableHlo.after hostOps2 Wb) (Proc.devRef .tc main_arg6) = Wb (Proc.devRef .tc main_arg6) := by
  after_results_simp

set_option maxHeartbeats 8000000 in
theorem keep2_arg7 (Wb : Valuation τ sig (Elt F)) :
    StableHlo.after hostOps2_1 (StableHlo.after hostOps2 Wb) (Proc.devRef .tc main_arg7) = Wb (Proc.devRef .tc main_arg7) := by
  after_results_simp

end Cert.KernelIdeal.HostGlue

end
-- ==== Proof.HostLayer3.lean ====
/-
  The host operations after the third product: the aggregation over the edges.

  From any buffer contents `Wb` whose product buffer holds `h`, whose edge-list and edge-weight buffers hold `src e`, `dst e`,
  `norm e`, and whose bias array is `b`, the stretch gathers the rows `h(s_e, ·)`, scales each by its edge's weight, adds them
  into row `d_e` of a zero array and adds the bias: `agg40 h e b`. It writes neither the edge lists, the edge
  weights nor a later layer's arguments.
-/
import proofs.«178425_j31207232372931_1_alg».proof.Proof.Gen.KernelIdeal.Launch
import proofs.«178425_j31207232372931_1_alg».proof.Proof.Spec
import Idealize.ShloMosaic.Lib.StableHlo.Run

set_option maxRecDepth 16384

noncomputable section

namespace Cert.KernelIdeal.HostGlue

open Cert.KernelIdeal Cert.KernelIdeal.Gen
open Idealize.ShloMosaic Idealize.ShloMosaic.TcCoe Idealize.SL.Sem Idealize.ShloMosaic.StableHlo

variable {F : FTy → Type} [FloatOps F]

set_option maxHeartbeats 8000000 in
/-- The layer's value. -/
theorem layer3 (Wb : Valuation τ sig (Elt F)) (h : FVec F Cert.ReferenceIdeal.S50000x40 .f32) (e : GraphConv.Edges F) (b : FVec F Cert.ReferenceIdeal.S40 .f32)
    (hh : Wb (Proc.devRef .tc main_v67) = h) (hs : Wb (Proc.devRef .tc main_v5) = GraphConv.src e)
    (hd : Wb (Proc.devRef .tc main_v6) = GraphConv.dst e) (hn : Wb (Proc.devRef .tc main_v30) = GraphConv.norm e)
    (hb : Wb (Proc.devRef .tc main_arg7) = b) :
    StableHlo.after hostOps3 Wb (Proc.devRef .tc main_v83) = GraphConv.agg40 h e b := by
  after_results_simp
  rw [hh, hs, hd, hn, hb]
  rfl

end Cert.KernelIdeal.HostGlue

end
-- ==== Proof.KernelValue.lean ====
/-
  The idealized kernel program computes the three-layer network of `GraphConv.net`.

  The buffer contents at the program's segment boundaries are followed from the launch memory to the result. Before the first
  product the host operations leave the edge lists and the edge weights in their buffers; each tiled product leaves in its output
  array the whole product of its two operand arrays (the ten row blocks cover it), which is the host's `dot_general` of them on
  the extended reals; the host operations after a product aggregate over the edges, add the bias and (but for the last layer)
  apply the activation. No stretch of host operations and no product writes the edge lists, the edge weights or an argument
  array, so each is still what it was when a later layer reads it. At the last boundary the result's buffer holds the network
  applied to the arguments' launch contents.
-/
import proofs.«178425_j31207232372931_1_alg».proof.Proof.Gen.KernelIdeal.Frame
import proofs.«178425_j31207232372931_1_alg».proof.Proof.KernelRun
import proofs.«178425_j31207232372931_1_alg».proof.Proof.Spec
import proofs.«178425_j31207232372931_1_alg».proof.Proof.DotIsProduct
import proofs.«178425_j31207232372931_1_alg».proof.Proof.Block0
import proofs.«178425_j31207232372931_1_alg».proof.Proof.Block1
import proofs.«178425_j31207232372931_1_alg».proof.Proof.Block2
import proofs.«178425_j31207232372931_1_alg».proof.Proof.HostPrologue
import proofs.«178425_j31207232372931_1_alg».proof.Proof.HostLayer1
import proofs.«178425_j31207232372931_1_alg».proof.Proof.HostLayer2
import proofs.«178425_j31207232372931_1_alg».proof.Proof.HostLayer3

set_option maxRecDepth 16384

noncomputable section

namespace Cert.KernelIdeal.NetValue

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-! ## The arguments' launch contents -/

abbrev x0 (c : Dev nD) : FVec Ideal Cert.ReferenceIdeal.S50000x128 .f32 := m ((c : Thread nD τ).loc main_arg0)
abbrev ed (c : Dev nD) : GraphConv.Edges Ideal := m ((c : Thread nD τ).loc main_arg1)
abbrev w1 (c : Dev nD) : FVec Ideal Cert.ReferenceIdeal.S128x128 .f32 := m ((c : Thread nD τ).loc main_arg2)
abbrev b1 (c : Dev nD) : FVec Ideal Cert.ReferenceIdeal.S128 .f32 := m ((c : Thread nD τ).loc main_arg3)
abbrev w2 (c : Dev nD) : FVec Ideal Cert.ReferenceIdeal.S128x128 .f32 := m ((c : Thread nD τ).loc main_arg4)
abbrev b2 (c : Dev nD) : FVec Ideal Cert.ReferenceIdeal.S128 .f32 := m ((c : Thread nD τ).loc main_arg5)
abbrev w3 (c : Dev nD) : FVec Ideal Cert.ReferenceIdeal.S128x40 .f32 := m ((c : Thread nD τ).loc main_arg6)
abbrev b3 (c : Dev nD) : FVec Ideal Cert.ReferenceIdeal.S40 .f32 := m ((c : Thread nD τ).loc main_arg7)

/-- The first layer's activations, the second's, and the network, of the launch contents. -/
abbrev h1 (c : Dev nD) := GraphConv.act1 (x0 m c) (ed m c) (w1 m c) (b1 m c)
abbrev h2 (c : Dev nD) := GraphConv.act2 (x0 m c) (ed m c) (w1 m c) (b1 m c) (w2 m c) (b2 m c)
abbrev out (c : Dev nD) := GraphConv.net (x0 m c) (ed m c) (w1 m c) (b1 m c) (w2 m c) (b2 m c) (w3 m c) (b3 m c)

/-! ## At the first product's entry -/

theorem W3_src (c : Dev nD) : W3 m ρ c (Proc.devRef .tc main_v5) = GraphConv.src (ed m c) := HostGlue.pro_src (W0 m ρ c) (ed m c) rfl
theorem W3_dst (c : Dev nD) : W3 m ρ c (Proc.devRef .tc main_v6) = GraphConv.dst (ed m c) := HostGlue.pro_dst (W0 m ρ c) (ed m c) rfl
theorem W3_norm (c : Dev nD) : W3 m ρ c (Proc.devRef .tc main_v30) = GraphConv.norm (ed m c) := HostGlue.pro_norm (W0 m ρ c) (ed m c) rfl
theorem W3_arg0 (c : Dev nD) : W3 m ρ c (Proc.devRef .tc main_arg0) = x0 m c := (HostGlue.pro_keep_arg0 (W0 m ρ c)).trans rfl
theorem W3_arg2 (c : Dev nD) : W3 m ρ c (Proc.devRef .tc main_arg2) = w1 m c := (HostGlue.pro_keep_arg2 (W0 m ρ c)).trans rfl
theorem W3_arg3 (c : Dev nD) : W3 m ρ c (Proc.devRef .tc main_arg3) = b1 m c := (HostGlue.pro_keep_arg3 (W0 m ρ c)).trans rfl
theorem W3_arg4 (c : Dev nD) : W3 m ρ c (Proc.devRef .tc main_arg4) = w2 m c := (HostGlue.pro_keep_arg4 (W0 m ρ c)).trans rfl
theorem W3_arg5 (c : Dev nD) : W3 m ρ c (Proc.devRef .tc main_arg5) = b2 m c := (HostGlue.pro_keep_arg5 (W0 m ρ c)).trans rfl
theorem W3_arg6 (c : Dev nD) : W3 m ρ c (Proc.devRef .tc main_arg6) = w3 m c := (HostGlue.pro_keep_arg6 (W0 m ρ c)).trans rfl
theorem W3_arg7 (c : Dev nD) : W3 m ρ c (Proc.devRef .tc main_arg7) = b3 m c := (HostGlue.pro_keep_arg7 (W0 m ρ c)).trans rfl

/-! ## After the first product -/

theorem W4_prod (c : Dev nD) : W4 m ρ c (Proc.devRef .tc main_v31) = GraphConv.lin128 (x0 m c) (w1 m c) := by
  refine (W4_arr m ρ c 2).trans ?_
  rw [Block0.final (V3 m ρ) c, show V3 m ρ c main_arg0 = x0 m c from W3_arg0 m ρ c, show V3 m ρ c main_arg2 = w1 m c from W3_arg2 m ρ c]
  exact (GraphConv.lin128_eq _ _).symm
theorem W4_src (c : Dev nD) : W4 m ρ c (Proc.devRef .tc main_v5) = GraphConv.src (ed m c) := (W4_of_ne m ρ c main_v5 (by decide)).trans (W3_src m ρ c)
theorem W4_dst (c : Dev nD) : W4 m ρ c (Proc.devRef .tc main_v6) = GraphConv.dst (ed m c) := (W4_of_ne m ρ c main_v6 (by decide)).trans (W3_dst m ρ c)
theorem W4_norm (c : Dev nD) : W4 m ρ c (Proc.devRef .tc main_v30) = GraphConv.norm (ed m c) := (W4_of_ne m ρ c main_v30 (by decide)).trans (W3_norm m ρ c)
theorem W4_arg3 (c : Dev nD) : W4 m ρ c (Proc.devRef .tc main_arg3) = b1 m c := (W4_of_ne m ρ c main_arg3 (by decide)).trans (W3_arg3 m ρ c)
theorem W4_arg4 (c : Dev nD) : W4 m ρ c (Proc.devRef .tc main_arg4) = w2 m c := (W4_of_ne m ρ c main_arg4 (by decide)).trans (W3_arg4 m ρ c)
theorem W4_arg5 (c : Dev nD) : W4 m ρ c (Proc.devRef .tc main_arg5) = b2 m c := (W4_of_ne m ρ c main_arg5 (by decide)).trans (W3_arg5 m ρ c)
theorem W4_arg6 (c : Dev nD) : W4 m ρ c (Proc.devRef .tc main_arg6) = w3 m c := (W4_of_ne m ρ c main_arg6 (by decide)).trans (W3_arg6 m ρ c)
theorem W4_arg7 (c : Dev nD) : W4 m ρ c (Proc.devRef .tc main_arg7) = b3 m c := (W4_of_ne m ρ c main_arg7 (by decide)).trans (W3_arg7 m ρ c)

/-! ## At the second product's entry -/

theorem W6_act (c : Dev nD) : W6 m ρ c (Proc.devRef .tc main_v48) = h1 m c :=
  HostGlue.layer1 (W4 m ρ c) _ _ _ (W4_prod m ρ c) (W4_src m ρ c) (W4_dst m ρ c) (W4_norm m ρ c) (W4_arg3 m ρ c)
theorem W6_src (c : Dev nD) : W6 m ρ c (Proc.devRef .tc main_v5) = GraphConv.src (ed m c) := (HostGlue.keep1_v5 (W4 m ρ c)).trans (W4_src m ρ c)
theorem W6_dst (c : Dev nD) : W6 m ρ c (Proc.devRef .tc main_v6) = GraphConv.dst (ed m c) := (HostGlue.keep1_v6 (W4 m ρ c)).trans (W4_dst m ρ c)
theorem W6_norm (c : Dev nD) : W6 m ρ c (Proc.devRef .tc main_v30) = GraphConv.norm (ed m c) := (HostGlue.keep1_v30 (W4 m ρ c)).trans (W4_norm m ρ c)
theorem W6_arg4 (c : Dev nD) : W6 m ρ c (Proc.devRef .tc main_arg4) = w2 m c := (HostGlue.keep1_arg4 (W4 m ρ c)).trans (W4_arg4 m ρ c)
theorem W6_arg5 (c : Dev nD) : W6 m ρ c (Proc.devRef .tc main_arg5) = b2 m c := (HostGlue.keep1_arg5 (W4 m ρ c)).trans (W4_arg5 m ρ c)
theorem W6_arg6 (c : Dev nD) : W6 m ρ c (Proc.devRef .tc main_arg6) = w3 m c := (HostGlue.keep1_arg6 (W4 m ρ c)).trans (W4_arg6 m ρ c)
theorem W6_arg7 (c : Dev nD) : W6 m ρ c (Proc.devRef .tc main_arg7) = b3 m c := (HostGlue.keep1_arg7 (W4 m ρ c)).trans (W4_arg7 m ρ c)

/-! ## After the second product -/

theorem W7_prod (c : Dev nD) : W7 m ρ c (Proc.devRef .tc main_v49) = GraphConv.lin128 (h1 m c) (w2 m c) := by
  refine (W7_arr m ρ c 2).trans ?_
  rw [Block1.final (V6 m ρ) c, show V6 m ρ c main_v48 = h1 m c from W6_act m ρ c, show V6 m ρ c main_arg4 = w2 m c from W6_arg4 m ρ c]
  exact (GraphConv.lin128_eq _ _).symm
theorem W7_src (c : Dev nD) : W7 m ρ c (Proc.devRef .tc main_v5) = GraphConv.src (ed m c) := (W7_of_ne m ρ c main_v5 (by decide)).trans (W6_src m ρ c)
theorem W7_dst (c : Dev nD) : W7 m ρ c (Proc.devRef .tc main_v6) = GraphConv.dst (ed m c) := (W7_of_ne m ρ c main_v6 (by decide)).trans (W6_dst m ρ c)
theorem W7_norm (c : Dev nD) : W7 m ρ c (Proc.devRef .tc main_v30) = GraphConv.norm (ed m c) := (W7_of_ne m ρ c main_v30 (by decide)).trans (W6_norm m ρ c)
theorem W7_arg5 (c : Dev nD) : W7 m ρ c (Proc.devRef .tc main_arg5) = b2 m c := (W7_of_ne m ρ c main_arg5 (by decide)).trans (W6_arg5 m ρ c)
theorem W7_arg6 (c : Dev nD) : W7 m ρ c (Proc.devRef .tc main_arg6) = w3 m c := (W7_of_ne m ρ c main_arg6 (by decide)).trans (W6_arg6 m ρ c)
theorem W7_arg7 (c : Dev nD) : W7 m ρ c (Proc.devRef .tc main_arg7) = b3 m c := (W7_of_ne m ρ c main_arg7 (by decide)).trans (W6_arg7 m ρ c)

/-! ## At the third product's entry -/

theorem W9_act (c : Dev nD) : W9 m ρ c (Proc.devRef .tc main_v66) = h2 m c :=
  HostGlue.layer2 (W7 m ρ c) _ _ _ (W7_prod m ρ c) (W7_src m ρ c) (W7_dst m ρ c) (W7_norm m ρ c) (W7_arg5 m ρ c)
theorem W9_src (c : Dev nD) : W9 m ρ c (Proc.devRef .tc main_v5) = GraphConv.src (ed m c) := (HostGlue.keep2_v5 (W7 m ρ c)).trans (W7_src m ρ c)
theorem W9_dst (c : Dev nD) : W9 m ρ c (Proc.devRef .tc main_v6) = GraphConv.dst (ed m c) := (HostGlue.keep2_v6 (W7 m ρ c)).trans (W7_dst m ρ c)
theorem W9_norm (c : Dev nD) : W9 m ρ c (Proc.devRef .tc main_v30) = GraphConv.norm (ed m c) := (HostGlue.keep2_v30 (W7 m ρ c)).trans (W7_norm m ρ c)
theorem W9_arg6 (c : Dev nD) : W9 m ρ c (Proc.devRef .tc main_arg6) = w3 m c := (HostGlue.keep2_arg6 (W7 m ρ c)).trans (W7_arg6 m ρ c)
theorem W9_arg7 (c : Dev nD) : W9 m ρ c (Proc.devRef .tc main_arg7) = b3 m c := (HostGlue.keep2_arg7 (W7 m ρ c)).trans (W7_arg7 m ρ c)

/-! ## After the third product, and the result -/

theorem W10_prod (c : Dev nD) : W10 m ρ c (Proc.devRef .tc main_v67) = GraphConv.lin40 (h2 m c) (w3 m c) := by
  refine (W10_arr m ρ c 2).trans ?_
  rw [Block2.final (V9 m ρ) c, show V9 m ρ c main_v66 = h2 m c from W9_act m ρ c, show V9 m ρ c main_arg6 = w3 m c from W9_arg6 m ρ c]
  exact (GraphConv.lin40_eq _ _).symm
theorem W10_src (c : Dev nD) : W10 m ρ c (Proc.devRef .tc main_v5) = GraphConv.src (ed m c) := (W10_of_ne m ρ c main_v5 (by decide)).trans (W9_src m ρ c)
theorem W10_dst (c : Dev nD) : W10 m ρ c (Proc.devRef .tc main_v6) = GraphConv.dst (ed m c) := (W10_of_ne m ρ c main_v6 (by decide)).trans (W9_dst m ρ c)
theorem W10_norm (c : Dev nD) : W10 m ρ c (Proc.devRef .tc main_v30) = GraphConv.norm (ed m c) := (W10_of_ne m ρ c main_v30 (by decide)).trans (W9_norm m ρ c)
theorem W10_arg7 (c : Dev nD) : W10 m ρ c (Proc.devRef .tc main_arg7) = b3 m c := (W10_of_ne m ρ c main_arg7 (by decide)).trans (W9_arg7 m ρ c)

/-- At the last boundary the result's buffer holds the network of the launch contents. -/
theorem result (c : Dev nD) : W11 m ρ c (Proc.devRef .tc main_v83) = out m c :=
  HostGlue.layer3 (W10 m ρ c) _ _ _ (W10_prod m ρ c) (W10_src m ρ c) (W10_dst m ρ c) (W10_norm m ρ c) (W10_arg7 m ρ c)

/-- The idealized kernel program's run: it terminates without a fault, its result is the network of the arguments' launch
    contents, and the arguments end as launched. -/
theorem run : θ_run defs (onTc (τ := τ) (main (F := Ideal))) ⟨m, fun _ => 0, ρ⟩ (fun r => ∀ c : Dev nD,
      r.2.mem ((c.tc : Thread nD τ).loc main_v83) = out m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (result m ρ c), (h c).2⟩) (Cert.KernelIdeal.RunValue.run_value m ρ)

end Cert.KernelIdeal.NetValue

end
-- ==== Proof.lean ====
/-
  A three-layer graph convolution: three tiled matrix products on the TensorCore with the aggregation over the edges on the
  host, against the same network with the host's `dot_general`.

  Both programs compute `agg₃ ((relu (agg₂ ((relu (agg₁ (x · W₁))) · W₂))) · W₃)` (`GraphConv.net`, Proof/Spec.lean), where `agg` gathers
  each edge's source row, scales it by the edge's weight `deg(s)^(-1/2) · deg(d)^(-1/2)`, adds it into the destination's row and adds
  the bias. The host operations of the two programs are the same, applied in the same order; they differ in the products.
  The kernel computes each product in ten blocks of 5000 rows, converting both operands to bf16 (the identity on the extended
  reals) and accumulating from zero: entry (r, f) of a block is `∑ k < 128, h(5000 t + r, k) · W(k, f)`, the entry of the whole
  product, and the row blocks cover the output (Proof/Block0–2.lean). The host's `dot_general` is the same sum (Proof/DotIsProduct.lean).
  Re-indexing a finite sum on the extended reals needs no finiteness, so the precondition is not used.

  The frames of the two kernel programs are the generated ones; the reference's frame is its run with the result dropped.
  No operation of the kernel's module is rewritten by the idealization, so `preserves` is `True`.
-/
import proofs.«178425_j31207232372931_1_alg».proof.Defs
import proofs.«178425_j31207232372931_1_alg».proof.Proof.Gen.Kernel
import proofs.«178425_j31207232372931_1_alg».proof.Proof.Gen.Kernel.Frame
import proofs.«178425_j31207232372931_1_alg».proof.Proof.Gen.KernelIdeal
import proofs.«178425_j31207232372931_1_alg».proof.Proof.Gen.KernelIdeal.Frame
import proofs.«178425_j31207232372931_1_alg».proof.Proof.Gen.ReferenceIdeal
import proofs.«178425_j31207232372931_1_alg».proof.Proof.Gen.Pre_finite_inputs
import proofs.«178425_j31207232372931_1_alg».proof.Proof.RefRun
import proofs.«178425_j31207232372931_1_alg».proof.Proof.RefIsSpec
import proofs.«178425_j31207232372931_1_alg».proof.Proof.KernelValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote nothing. -/
theorem preserves : Cert.preserves_Kernel_KernelIdeal := trivial

/-- Both programs end with the network of the arguments' launch contents in their result: the kernel's by following its
    segment boundaries (Proof/KernelValue.lean), the reference's by unfolding the network's definition (Proof/RefIsSpec.lean);
    the arguments agree. -/
theorem algebraic : Cert.algebraic_KernelIdeal_ReferenceIdeal := by
  intro m ρ m' ρ' _ hagree
  refine ⟨fun c => Cert.KernelIdeal.NetValue.out m c, Cert.KernelIdeal.NetValue.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.RefValue.result_eq]
  obtain ⟨e0, e1, e2, e3, e4, e5, e6, e7⟩ := hagree c
  rw [e0, e1, e2, e3, e4, e5, e6, e7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
